-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128 : Shape := ⟨2, ![4, 128]⟩
abbrev S4x384x2 : Shape := ⟨3, ![4, 384, 2]⟩
abbrev S4x384x1 : Shape := ⟨3, ![4, 384, 1]⟩
abbrev S4x256x2 : Shape := ⟨3, ![4, 256, 2]⟩
abbrev S130x128 : Shape := ⟨2, ![130, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S4x128 : S_.BroadcastsInDim S4x128 (![] : Fin 0 → Fin S4x128.rank)
  reducesTo_S4x128_S_d0_1 : S4x128.ReducesTo [0, 1] S_
  h_S_ : 0 < S_.numel
  bcast_S_S4x384x2 : S_.BroadcastsInDim S4x384x2 (![] : Fin 0 → Fin S4x384x2.rank)
  reducesTo_S4x384x2_S_d0_1_2 : S4x384x2.ReducesTo [0, 1, 2] S_
  bcast_S_S4x384x1 : S_.BroadcastsInDim S4x384x1 (![] : Fin 0 → Fin S4x384x1.rank)
  reducesTo_S4x384x1_S_d0_1_2 : S4x384x1.ReducesTo [0, 1, 2] S_
  bcast_S_S4x256x2 : S_.BroadcastsInDim S4x256x2 (![] : Fin 0 → Fin S4x256x2.rank)
  reducesTo_S4x256x2_S_d0_1_2 : S4x256x2.ReducesTo [0, 1, 2] S_
  bcast_S_S130x128 : S_.BroadcastsInDim S130x128 (![] : Fin 0 → Fin S130x128.rank)
  reducesTo_S130x128_S_d0_1 : S130x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S130x128 .f32) (main_arg5 : FVec F S128 .f32) (main_arg6 : FVec F S128x64 .f32) (main_arg7 : FVec F S64 .f32) (main_v13 : IVec S_ 1) (main_v16 : IVec S4x256x2 1) : IVec S_ 1 :=
  let main_c_5 : IVec S_ 1 := constantI S_ 1 1#1
  let main_v17 : IVec S_ 1 := (fun x v => Host.reduce IntOp.andi x v reducesTo_S4x256x2_S_d0_1_2 h_S_) main_v16 main_c_5
  let main_v18 : IVec S_ 1 := andi main_v13 main_v17
  let main_v19 : FVec F S130x128 .f32 := Host.absf main_arg4
  let main_cst_6 : FVec F S_ .f32 := constant S_ .f32 0x7F800000#32
  let main_v20 : FVec F S130x128 .f32 := broadcastInDim S130x128 ![] bcast_S_S130x128 main_cst_6
  let main_v21 : IVec S130x128 1 := cmpf .olt main_v19 main_v20
  let main_c_7 : IVec S_ 1 := constantI S_ 1 1#1
  let main_v22 : IVec S_ 1 := (fun x v => Host.reduce IntOp.andi x v reducesTo_S130x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_v33

def fn {F : FTy → Type} [FloatOps F] (main_arg0 : FVec F S4x128 .f32) (main_arg1 : FVec F S4x384x2 .f32) (main_arg2 : FVec F S4x384x1 .f32) (main_arg3 : FVec F S4x256x2 .f32) (main_arg4 : FVec F S130x128 .f32) (main_arg5 : FVec F S128 .f32) (main_arg6 : FVec F S128x64 .f32) (main_arg7 : FVec F S64 .f32) : IVec S_ 1 :=
  let main_v0 : FVec F S4x128 .f32 := Host.absf main_arg0
  let main_cst : FVec F S_ .f32 := constant S_ .f32 0x7F800000#32
  let main_v1 : FVec F S4x128 .f32 := broadcastInDim S4x128 ![] bcast_S_S4x128 main_cst
  let main_v2 : IVec S4x128 1 := cmpf .olt main_v0 main_v1
  let main_c : IVec S_ 1 := constantI S_ 1 1#1
  let main_v3 : IVec S_ 1 := (fun x v => Host.reduce IntOp.andi x v reducesTo_S4x128_S_d0_1 h_S_) main_v2 main_c
  let main_v4 : FVec F S4x384x2 .f32 := Host.absf main_arg1
  let main_cst_0 : FVec F S_ .f32 := constant S_ .f32 0x7F800000#32
  let main_v5 : FVec F S4x384x2 .f32 := broadcastInDim S4x384x2 ![] bcast_S_S4x384x2 main_cst_0
  let main_v6 : IVec S4x384x2 1 := cmpf .olt main_v4 main_v5
  let main_c_1 : IVec S_ 1 := constantI S_ 1 1#1
  let main_v7 : IVec S_ 1 := (fun x v => Host.reduce IntOp.andi x v reducesTo_S4x384x2_S_d0_1_2 h_S_) main_v6 main_c_1
  let main_v8 : IVec S_ 1 := andi main_v3 main_v7
  let main_v9 : FVec F S4x384x1 .f32 := Host.absf main_arg2
  let main_cst_2 : FVec F S_ .f32 := constant S_ .f32 0x7F800000#32
  let main_v10 : FVec F S4x384x1 .f32 := broadcastInDim S4x384x1 ![] bcast_S_S4x384x1 main_cst_2
  let main_v11 : IVec S4x384x1 1 := cmpf .olt main_v9 main_v10
  let main_c_3 : IVec S_ 1 := constantI S_ 1 1#1
  let main_v12 : IVec S_ 1 := (fun x v => Host.reduce IntOp.andi x v reducesTo_S4x384x1_S_d0_1_2 h_S_) main_v11 main_c_3
  let main_v13 : IVec S_ 1 := andi main_v8 main_v12
  let main_v14 : FVec F S4x256x2 .f32 := Host.absf main_arg3
  let main_cst_4 : FVec F S_ .f32 := constant S_ .f32 0x7F800000#32
  let main_v15 : FVec F S4x256x2 .f32 := broadcastInDim S4x256x2 ![] bcast_S_S4x256x2 main_cst_4
  let main_v16 : IVec S4x256x2 1 := cmpf .olt main_v14 main_v15
  fn_part1 (F := F) main_arg4 main_arg5 main_arg6 main_arg7 main_v13 main_v16
-- ==== Kernel.lean ====
abbrev S4x128 : Shape := ⟨2, ![4, 128]⟩
abbrev S4x384x2 : Shape := ⟨3, ![4, 384, 2]⟩
abbrev S4x384x1 : Shape := ⟨3, ![4, 384, 1]⟩
abbrev S4x256x2 : Shape := ⟨3, ![4, 256, 2]⟩
abbrev S130x128 : Shape := ⟨2, ![130, 128]⟩
abbrev S128 : Shape := ⟨1, ![128]⟩
abbrev S128x64 : Shape := ⟨2, ![128, 64]⟩
abbrev S64 : Shape := ⟨1, ![64]⟩
abbrev S2x128 : Shape := ⟨2, ![2, 128]⟩
abbrev S128x128 : Shape := ⟨2, ![128, 128]⟩
abbrev S1x128 : Shape := ⟨2, ![1, 128]⟩
abbrev S4x1x128 : Shape := ⟨3, ![4, 1, 128]⟩
abbrev S4x384x384x64 : Shape := ⟨4, ![4, 384, 384, 64]⟩
abbrev S1x128x2 : Shape := ⟨3, ![1, 128, 2]⟩
abbrev S1x1x128 : Shape := ⟨3, ![1, 1, 128]⟩
abbrev S1x128x128x64 : Shape := ⟨4, ![1, 128, 128, 64]⟩
abbrev S128x2 : Shape := ⟨2, ![128, 2]⟩
abbrev S128x1 : Shape := ⟨2, ![128, 1]⟩
abbrev S128x1x128 : Shape := ⟨3, ![128, 1, 128]⟩
abbrev S1x128x128 : Shape := ⟨3, ![1, 128, 128]⟩
abbrev S128x128x128 : Shape := ⟨3, ![128, 128, 128]⟩
abbrev S16384x128 : Shape := ⟨2, ![16384, 128]⟩
abbrev S16384x64 : Shape := ⟨2, ![16384, 64]⟩
abbrev S1x64 : Shape := ⟨2, ![1, 64]⟩
abbrev S128x128x64 : Shape := ⟨3, ![128, 128, 64]⟩

abbrev nBuf : Space → Nat
  | .hbm => 16
  | .vmem => 11
  | .smem => 0
  | _ => 0

abbrev bufTy : (tb : Table) → Fin (tcTables nBuf tb) → BufTy
  | .hbm, ⟨0, _⟩ => ⟨S4x128, .f32⟩
  | .hbm, ⟨1, _⟩ => ⟨S4x384x2, .f32⟩
  | .hbm, ⟨2, _⟩ => ⟨S4x384x1, .f32⟩
  | .hbm, ⟨3, _⟩ => ⟨S4x256x2, .f32⟩
  | .hbm, ⟨4, _⟩ => ⟨S130x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S2x128, .f32⟩
  | .hbm, ⟨9, _⟩ => ⟨S128x128, .f32⟩
  | .hbm, ⟨10, _⟩ => ⟨S4x128, .f32⟩
  | .hbm, ⟨11, _⟩ => ⟨S1x128, .f32⟩
  | .hbm, ⟨12, _⟩ => ⟨S4x128, .f32⟩
  | .hbm, ⟨13, _⟩ => ⟨S4x128, .f32⟩
  | .hbm, ⟨14, _⟩ => ⟨S4x1x128, .f32⟩
  | .hbm, ⟨15, _⟩ => ⟨S4x384x384x64, .f32⟩
  | .local _ .vmem, ⟨0, _⟩ => ⟨S1x128x2, .f32⟩
  | .local _ .vmem, ⟨1, _⟩ => ⟨S1x128x2, .f32⟩
  | .local _ .vmem, ⟨2, _⟩ => ⟨S1x128x2, .f32⟩
  | .local _ .vmem, ⟨3, _⟩ => ⟨S1x128x2, .f32⟩
  | .local _ .vmem, ⟨4, _⟩ => ⟨S1x1x128, .f32⟩
  | .local _ .vmem, ⟨5, _⟩ => ⟨S1x1x128, .f32⟩
  | .local _ .vmem, ⟨6, _⟩ => ⟨S2x128, .f32⟩
  | .local _ .vmem, ⟨7, _⟩ => ⟨S128x64, .f32⟩
  | .local _ .vmem, ⟨8, _⟩ => ⟨S64, .f32⟩
  | .local _ .vmem, ⟨9, _⟩ => ⟨S1x128x128x64, .f32⟩
  | .local _ .vmem, ⟨10, _⟩ => ⟨S1x128x128x64, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 3, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  slices_S130x128_S2x128_0_0 : S130x128.Slices ![0, 0] S2x128
  slices_S130x128_S128x128_2_0 : S130x128.Slices ![2, 0] S128x128
  bcast_S128_S1x128_1 : S128.BroadcastsInDim S1x128 (![1] : Fin 1 → Fin S1x128.rank)
  bcast_S1x128_S4x128_0_1 : S1x128.BroadcastsInDim S4x128 (![0, 1] : Fin 2 → Fin S4x128.rank)
  shapeCasts_S4x128_S4x1x128 : S4x128.ShapeCasts S4x1x128
  inb_S1x128x2_S1x128x2_0_0_0 : ∀ a, (![0, 0, 0] : Fin 3 → Nat) a + S1x128x2.size a ≤ S1x128x2.size a
  h_S1x128x2 : 0 < S1x128x2.numel
  shapeCasts_S1x128x2_S128x2 : S1x128x2.ShapeCasts S128x2
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  inb_S2x128_S2x128_0_0 : ∀ a, (![0, 0] : Fin 2 → Nat) a + S2x128.size a ≤ S2x128.size a
  h_S2x128 : 0 < S2x128.numel
  shapeCasts_S2x128_S2x128 : S2x128.ShapeCasts S2x128
  slices_S128x2_o0_0_S128x1 : S128x2.Slices ![0, 0] S128x1
  slices_S2x128_o0_0_S1x128 : S2x128.Slices ![0, 0] S1x128
  broadcasts_S128x1_S128x128 : S128x1.Broadcasts S128x128
  broadcasts_S1x128_S128x128 : S1x128.Broadcasts S128x128
  slices_S128x2_o0_1_S128x1 : S128x2.Slices ![0, 1] S128x1
  slices_S2x128_o1_0_S1x128 : S2x128.Slices ![1, 0] S1x128
  shapeCasts_S128_S1x128 : S128.ShapeCasts S1x128
  bitsLt_bf16_f32 : FTy.bits .bf16 < FTy.bits .f32
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128x128x128_S16384x128 : S128x128x128.ShapeCasts S16384x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S16384x64 : S1x64.Broadcasts S16384x64
  shapeCasts_S16384x64_S128x128x64 : S16384x64.ShapeCasts S128x128x64
  inb_S1x128x128x64_S1x128x128x64_0_0_0_0 : ∀ a, (![0, 0, 0, 0] : Fin 4 → Nat) a + S1x128x128x64.size a ≤ S1x128x128x64.size a
  h_S1x128x128x64 : 0 < S1x128x128x64.numel
  shapeCasts_S1x128x128x64_S128x128x64 : S1x128x128x64.ShapeCasts S128x128x64
  shapeCasts_S128x128x64_S1x128x128x64 : S128x128x64.ShapeCasts S1x128x128x64
  dot_S4x128_S128x128_S4x128_1_0_0_1_n_n_wf : DotDims.WF S4x128 S128x128 S4x128 [1] [0] [0] [1] [] []
  dot_S16384x128_S128x64_S16384x64_1_0_0_1_n_n_wf : DotDims.WF S16384x128 S128x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2.size a ≤ S4x384x2.size a
  hwx0_0 : ∀ i : grid0.Coords, EltTy.bits .f32 = 32 ∨ (Rect.block (s := S4x384x2) S1x128x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2.size a ≤ S4x384x2.size a
  hwx0_1 : ∀ i : grid0.Coords, EltTy.bits .f32 = 32 ∨ (Rect.block (s := S4x384x2) S1x128x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x128x64.size a ≤ S4x384x384x64.size a
  hwx0_6 : ∀ i : grid0.Coords, EltTy.bits .f32 = 32 ∨ (Rect.block (s := S4x384x384x64) S1x128x128x64.size (cc0_transform_6 i) (hinb0_6 i)).WholeWords (EltTy.packing .f32)

variable [Facts₀]

def dot_S4x128_S128x128_S4x128_1_0_0_1_n_n : DotDims S4x128 S128x128 S4x128 where
  lhsContracting := [1]
  rhsContracting := [0]
  lhsNonContracting := [0]
  rhsNonContracting := [1]
  lhsBatch := []
  rhsBatch := []
  wf := dot_S4x128_S128x128_S4x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf

abbrev win0_0 : Pipeline.Window sig grid0 :=
  Pipeline.Window.ofSpec (Memref.whole main_arg1) S1x128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128x128x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x128 : Shape := ⟨2, ![4, 128]⟩
abbrev S4x384x2 : Shape := ⟨3, ![4, 384, 2]⟩
abbrev S4x384x1 : Shape := ⟨3, ![4, 384, 1]⟩
abbrev S4x256x2 : Shape := ⟨3, ![4, 256, 2]⟩
abbrev S130x128 : Shape := ⟨2, ![130, 128]⟩
abbrev S128 : Shape := ⟨1, ![128]⟩
abbrev S128x64 : Shape := ⟨2, ![128, 64]⟩
abbrev S64 : Shape := ⟨1, ![64]⟩
abbrev S4x384x1x2 : Shape := ⟨4, ![4, 384, 1, 2]⟩
abbrev S4x1x384x2 : Shape := ⟨4, ![4, 1, 384, 2]⟩
abbrev S4x384x384x2 : Shape := ⟨4, ![4, 384, 384, 2]⟩
abbrev S4x1x1x128 : Shape := ⟨4, ![4, 1, 1, 128]⟩
abbrev S4x384x384x128 : Shape := ⟨4, ![4, 384, 384, 128]⟩
abbrev S4x384x384x130 : Shape := ⟨4, ![4, 384, 384, 130]⟩
abbrev S1x1x1x128 : Shape := ⟨4, ![1, 1, 1, 128]⟩
abbrev S_ : Shape := ⟨0, ![]⟩
abbrev S4x384x384x64 : Shape := ⟨4, ![4, 384, 384, 64]⟩
abbrev S1x1x1x64 : Shape := ⟨4, ![1, 1, 1, 64]⟩

abbrev nBuf : Space → Nat
  | .hbm => 27
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x384x2, .f32⟩
  | .hbm, ⟨2, _⟩ => ⟨S4x384x1, .f32⟩
  | .hbm, ⟨3, _⟩ => ⟨S4x256x2, .f32⟩
  | .hbm, ⟨4, _⟩ => ⟨S130x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S4x384x1x2, .f32⟩
  | .hbm, ⟨9, _⟩ => ⟨S4x1x384x2, .f32⟩
  | .hbm, ⟨10, _⟩ => ⟨S4x384x384x2, .f32⟩
  | .hbm, ⟨11, _⟩ => ⟨S4x384x384x2, .f32⟩
  | .hbm, ⟨12, _⟩ => ⟨S4x384x384x2, .f32⟩
  | .hbm, ⟨13, _⟩ => ⟨S4x1x1x128, .f32⟩
  | .hbm, ⟨14, _⟩ => ⟨S4x384x384x128, .f32⟩
  | .hbm, ⟨15, _⟩ => ⟨S4x384x384x130, .f32⟩
  | .hbm, ⟨16, _⟩ => ⟨S4x384x384x128, .f32⟩
  | .hbm, ⟨17, _⟩ => ⟨S1x1x1x128, .f32⟩
  | .hbm, ⟨18, _⟩ => ⟨S4x384x384x128, .f32⟩
  | .hbm, ⟨19, _⟩ => ⟨S4x384x384x128, .f32⟩
  | .hbm, ⟨20, _⟩ => ⟨S_, .f32⟩
  | .hbm, ⟨21, _⟩ => ⟨S4x384x384x128, .f32⟩
  | .hbm, ⟨22, _⟩ => ⟨S4x384x384x128, .f32⟩
  | .hbm, ⟨23, _⟩ => ⟨S4x384x384x64, .f32⟩
  | .hbm, ⟨24, _⟩ => ⟨S1x1x1x64, .f32⟩
  | .hbm, ⟨25, _⟩ => ⟨S4x384x384x64, .f32⟩
  | .hbm, ⟨26, _⟩ => ⟨S4x384x384x64, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S4x384x2_S4x384x1x2_0_1_3 : S4x384x2.BroadcastsInDim S4x384x1x2 (![0, 1, 3] : Fin 3 → Fin S4x384x1x2.rank)
  bcast_S4x384x2_S4x1x384x2_0_2_3 : S4x384x2.BroadcastsInDim S4x1x384x2 (![0, 2, 3] : Fin 3 → Fin S4x1x384x2.rank)
  bcast_S4x384x1x2_S4x384x384x2_0_1_2_3 : S4x384x1x2.BroadcastsInDim S4x384x384x2 (![0, 1, 2, 3] : Fin 4 → Fin S4x384x384x2.rank)
  bcast_S4x1x384x2_S4x384x384x2_0_1_2_3 : S4x1x384x2.BroadcastsInDim S4x384x384x2 (![0, 1, 2, 3] : Fin 4 → Fin S4x384x384x2.rank)
  bcast_S4x128_S4x1x1x128_0_3 : S4x128.BroadcastsInDim S4x1x1x128 (![0, 3] : Fin 2 → Fin S4x1x1x128.rank)
  bcast_S4x1x1x128_S4x384x384x128_0_1_2_3 : S4x1x1x128.BroadcastsInDim S4x384x384x128 (![0, 1, 2, 3] : Fin 4 → Fin S4x384x384x128.rank)
  concatenates_S4x384x384x2_S4x384x384x128_S4x384x384x130_d3 : Shape.Concatenates [S4x384x384x2, S4x384x384x128] S4x384x384x130 3
  bcast_S128_S1x1x1x128_3 : S128.BroadcastsInDim S1x1x1x128 (![3] : Fin 1 → Fin S1x1x1x128.rank)
  bcast_S1x1x1x128_S4x384x384x128_0_1_2_3 : S1x1x1x128.BroadcastsInDim S4x384x384x128 (![0, 1, 2, 3] : Fin 4 → Fin S4x384x384x128.rank)
  bcast_S_S4x384x384x128 : S_.BroadcastsInDim S4x384x384x128 (![] : Fin 0 → Fin S4x384x384x128.rank)
  bcast_S64_S1x1x1x64_3 : S64.BroadcastsInDim S1x1x1x64 (![3] : Fin 1 → Fin S1x1x1x64.rank)
  bcast_S1x1x1x64_S4x384x384x64_0_1_2_3 : S1x1x1x64.BroadcastsInDim S4x384x384x64 (![0, 1, 2, 3] : Fin 4 → Fin S4x384x384x64.rank)
  dot_S4x384x384x130_S130x128_S4x384x384x128_3_0_012_1_n_n_wf : DotDims.WF S4x384x384x130 S130x128 S4x384x384x128 [3] [0] [0, 1, 2] [1] [] []
  dot_S4x384x384x128_S128x64_S4x384x384x64_3_0_012_1_n_n_wf : DotDims.WF S4x384x384x128 S128x64 S4x384x384x64 [3] [0] [0, 1, 2] [1] [] []

variable [Facts₀]

def dot_S4x384x384x130_S130x128_S4x384x384x128_3_0_012_1_n_n : DotDims S4x384x384x130 S130x128 S4x384x384x128 where
  lhsContracting := [3]
  rhsContracting := [0]
  lhsNonContracting := [0, 1, 2]
  rhsNonContracting := [1]
  lhsBatch := []
  rhsBatch := []
  wf := dot_S4x384x384x130_S130x128_S4x384x384x128_3_0_012_1_n_n_wf
def dot_S4x384x384x128_S128x64_S4x384x384x64_3_0_012_1_n_n : DotDims S4x384x384x128 S128x64 S4x384x384x64 where
  lhsContracting := [3]
  rhsContracting := [0]
  lhsNonContracting := [0, 1, 2]
  rhsNonContracting := [1]
  lhsBatch := []
  rhsBatch := []
  wf := dot_S4x384x384x128_S128x64_S4x384x384x64_3_0_012_1_n_n_wf

class Facts : Prop extends Facts₀ where

variable [Facts]
-- ==== Proof.LibSharedFrame.lean ====
/-
  The frame run of a program that is host operations followed by ONE pipelined region whose windows may read one
  array through several windows, when some unscoped buffers are no window's array at all.

  The buffers behind the windows' arrays are dealt among the windows before the first grid point (`hdealt`: two
  windows reading one array each hold a share of it). Every other unscoped buffer bypasses the region: it is
  set aside whole at its region-entry contents, never lent to the body, and read back at the end. For a body with no
  semaphore, scratch or generator use of its own the region's invariant is empty. The conclusion is the library's
  `FramePost`: every window's array at the write-backs of all points over its entry contents, every bypassing buffer
  as the region found it.
-/
import Idealize.ShloMosaic.Lib.Pipeline.Frame

noncomputable section

namespace Cert.Lib.SharedFrame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligationLoose cellOf)

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

set_option backward.isDefEq.respectTransparency.types false in
/-- The run. `hdealt`: the buffers behind the windows' arrays, each held whole at the region-entry contents `V`, make
    the proof data's arrays at their shares. `hscratch`: the core has no scoped buffer beside the staging buffers.
    `hΦ`: the body carries nothing between points. -/
theorem run_frame (cfgs : P → Cfg sig Λ₀) (dats : (p : P) → (c : Dev nD) → Dat τ Val Unit ℕ (UR sig nD τ) ℕ (cfgs p) c) (p : P)
    (hinj : Function.Injective (cellOf (nD := nD) (τ := τ) cfgs)) (hw : Pipeline.WinFacts₀ (cfgs p).spec)
    (hne : ∀ w : Fin (cfgs p).W, 0 < ((cfgs p).spec w).block.numel) (harr : ∀ w, ((cfgs p).spec w).arr.IsWhole)
    (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Pipeline.Sig Λ₀ P fun p => ((cfgs p).toPCfg (Val := Val)).Adm) .tc) PUnit)
    (hbody : ∀ c, BodyObligationLoose (dats p c) defs₀ 𝒱₀ () Set.univ) (howed : ∀ c t, (dats p c).owed t = 0)
    (V : (c : Dev nD) → (b : Ref sig .tc) → Buf Val ((c.tc : Thread nD τ).loc b))
    (hmain : Pipeline.HMain (Ix := Unit) (Name := ℕ) (U := UR sig nD τ) (Lvl := ℕ) cfgs p defs₀ 𝒱₀ m main V)
    (hdealt : ∀ c, (Pipeline.arrBufs (cfgs p).spec c (V c) : sProp 𝕄) ⊢ (dats p c).arrays ((dats p c).arrAt · 0))
    (hscratch : ∀ c, (Pipeline.scopedRest (cfgs p).spec c : sProp 𝕄) = BI.emp)
    (hΦ : ∀ c t, (dats p c).Φ t = BI.emp) :
    θ_run (Pipeline.defs (fun q => Cfg.toPCfg (Val := Val) (cfgs q)) defs₀) (onTc main) (s₀ m g)
      (Pipeline.FramePost cfgs dats p V) :=
  Pipeline.θ_run_region_noSem_shared cfgs dats () hinj p hw
    (emb₁ : Emb (UR sig nD τ) (MT nD τ sig Unit Val ℕ (UR sig nD τ) ℕ)) defs₀ 𝒱₀ m g main
    (hbody := hbody) (hne := hne) (harr := harr) (hstage := hstage) (howed := howed)
    (u₀ := initOf (Pipeline.cells cfgs hinj) (Pipeline.launchToks cfgs hinj)) (hu₀ := BI.Entails.refl _)
    (V := V) (hmain := hmain) (hsplit := hdealt)
    (X := fun _ => iprop(emp)) (Y := fun _ => iprop(emp))
    (Z := fun c => Pipeline.unscopedRest (Ix := Unit) (Name := ℕ) (U := UR sig nD τ) (Lvl := ℕ) (cfgs p).spec c (V c))
    (hX := fun c => by iintro H; isplitr; · iempintro
                       iexact H)
    (hin := fun c => by rw [hscratch, hΦ]; iintro ⟨-, -⟩; iempintro)
    (hout := fun c => by rw [hscratch, hΦ]; iintro -; isplitr <;> iempintro)
    (QY := fun c s => ∀ b ∈ Pipeline.restRefs sig (cfgs p).spec, s.mem ((c.tc : Thread nD τ).loc b) = V c b)
    (hY := fun c s' => by
      iintro ⟨-, HU, HSI⟩
      unfold Pipeline.unscopedRest
      imodintro
      iapply (pointsTo_read_all (Pipeline.restRefs sig (cfgs p).spec) (fun b => (c.tc : Thread nD τ).loc b) (V c) s')
      isplitl [HU] <;> iassumption)
    (hQ := fun _ h c => ⟨(h c).1, (h c).2⟩)

end Cert.Lib.SharedFrame

end
-- ==== Proof.LibSharedLaunch.lean ====
/-
  The run of a program that is ONE pipelined region whose windows may read one array through several windows.

  When two input windows stage blocks of the same array, the array's points-to cannot be handed whole to each;
  it is dealt between them before the first grid point, each window holding a share of it (for two windows: the
  two halves of the full share, `halves`). How it is dealt is the one thing such a run asks beyond a run over
  pairwise distinct arrays (`hdealt`). `run_bare` is that run for the plainest kernels — no semaphore, scratch
  or generator use of the body's own, every unscoped buffer some window's array — so that nothing bypasses the
  region and the region's invariant is empty: every weakly fair execution ends, faulting nowhere, with every
  window's array at the write-backs of all points over its entry contents.
-/
import Idealize.ShloMosaic.Lib.Pipeline.Frame

noncomputable section

namespace Cert.Lib.SharedLaunch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligationLoose cellOf)

variable {nD : Nat} {τ : Topo} {sig : RefSig} {Val : EltTy → Type}

/-- A buffer held whole is held in two halves, one for each of two readers. -/
theorem halves {Ix : Type} [DecidableEq Ix] {Name : Type} [DecidableEq Name] {U : Type} [URA U] {Lvl : Type}
    (ℓ : Loc nD τ sig) (f : Buf Val ℓ) :
    ((ℓ ↦{fullShare} f) : sProp (MT nD τ sig Ix Val Name U Lvl)) ⊢ iprop((ℓ ↦{fullShare.left} f) ∗ (ℓ ↦{fullShare.right} f)) :=
  (pointsTo_share (PosShare.mem_left_op_right fullShare)).1

variable {Λ₀ : Idealize.SL.Sem.Labels} {P : Type} [Fintype P] [DecidableEq P] [∀ e, Nonempty (Val e)]

local notation "𝕄" => MT nD τ sig Unit Val ℕ (UR sig nD τ) ℕ

set_option backward.isDefEq.respectTransparency.types false in
/-- The run. `hdealt`: the buffers behind the windows' arrays, each held whole at the region-entry contents `V`,
    make the proof data's arrays at their shares. `hrest`, `hscratch`: no unscoped buffer bypasses the region and
    the core has no scoped buffer beside the staging buffers. -/
theorem run_bare (cfgs : P → Cfg sig Λ₀) (dats : (p : P) → (c : Dev nD) → Dat τ Val Unit ℕ (UR sig nD τ) ℕ (cfgs p) c) (p : P)
    (hinj : Function.Injective (cellOf (nD := nD) (τ := τ) cfgs)) (hw : Pipeline.WinFacts₀ (cfgs p).spec)
    (hne : ∀ w : Fin (cfgs p).W, 0 < ((cfgs p).spec w).block.numel) (harr : ∀ w, ((cfgs p).spec w).arr.IsWhole)
    (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Pipeline.Sig Λ₀ P fun p => ((cfgs p).toPCfg (Val := Val)).Adm) .tc) PUnit)
    (hbody : ∀ c, BodyObligationLoose (dats p c) defs₀ 𝒱₀ () Set.univ) (howed : ∀ c t, (dats p c).owed t = 0)
    (V : (c : Dev nD) → (b : Ref sig .tc) → Buf Val ((c.tc : Thread nD τ).loc b))
    (hmain : Pipeline.HMain (Ix := Unit) (Name := ℕ) (U := UR sig nD τ) (Lvl := ℕ) cfgs p defs₀ 𝒱₀ m main V)
    (hdealt : ∀ c, (Pipeline.arrBufs (cfgs p).spec c (V c) : sProp 𝕄) ⊢ (dats p c).arrays ((dats p c).arrAt · 0))
    (hrest : ∀ c, (Pipeline.unscopedRest (cfgs p).spec c (V c) : sProp 𝕄) = BI.emp)
    (hscratch : ∀ c, (Pipeline.scopedRest (cfgs p).spec c : sProp 𝕄) = BI.emp)
    (hΦ : ∀ c t, (dats p c).Φ t = BI.emp) :
    θ_run (Pipeline.defs (fun q => Cfg.toPCfg (Val := Val) (cfgs q)) defs₀) (onTc main) (s₀ m g)
      (fun r => ∀ (c : Dev nD) (w : Fin (cfgs p).W),
        r.2.mem (((cfgs p).spec w).arr.view.loc (c.tc : Thread nD τ)) = (dats p c).arrAt w (cfgs p).N) :=
  Pipeline.θ_run_region_noSem_shared cfgs dats () hinj p hw
    (emb₁ : Emb (UR sig nD τ) (MT nD τ sig Unit Val ℕ (UR sig nD τ) ℕ)) defs₀ 𝒱₀ m g main
    (hbody := hbody) (hne := hne) (harr := harr) (hstage := hstage) (howed := howed)
    (u₀ := initOf (Pipeline.cells cfgs hinj) (Pipeline.launchToks cfgs hinj)) (hu₀ := BI.Entails.refl _)
    (V := V) (hmain := hmain) (hsplit := hdealt)
    (X := fun _ => iprop(emp)) (Y := fun _ => iprop(emp)) (Z := fun _ => iprop(emp))
    (hX := fun c => by rw [hrest]; iintro -; isplitr <;> iempintro)
    (hin := fun c => by rw [hscratch, hΦ]; iintro ⟨-, -⟩; iempintro)
    (hout := fun c => by rw [hscratch, hΦ]; iintro -; isplitr <;> iempintro)
    (QY := fun _ _ => True)
    (hY := fun c s' => by
      iintro ⟨-, -, HSI⟩; imodintro
      isplitr; · ipureintro; trivial
      iexact HSI)
    (hQ := fun _ h c w => (h c).1 w)

end Cert.Lib.SharedLaunch

end
-- ==== Proof.FrameKernel.lean ====
/-
  The frame of `Kernel`: every weakly fair execution of @main terminates, nothing faults, and the argument arrays end unchanged
  — and, beyond the frame, the result array after the run as the write-backs of the 36 grid points over its entry contents.

  @main is seven host operations (two slices of W1, the representation's product with the lower slice, the bias added,
  a reshape) and one pipelined region over the grid 4 × 3 × 3. The region has six input windows and one output window.
  Windows 0 and 1 both read the array of context points: window 0 the row tile `(b, n)`, window 1 the column tile `(b, m)`.
  So that array's points-to is dealt in two halves, one per window; every other windowed array is held whole.
  The body loads the six input blocks whole, computes, loads the output buffer (the value is unused) and stores the whole
  output block; it keeps nothing between points and has no semaphore, scratch or generator use of its own, so the region's
  invariant is empty. The ten unscoped buffers that are no window's array bypass the region and are read back unchanged.
  No host operation writes an argument array, so the region finds every argument as launched.
-/
import proofs.«127898_j27135603376524_2_alg».proof.Proof.Gen.Kernel.Launch
import proofs.«127898_j27135603376524_2_alg».proof.Proof.Gen.Kernel.Skeleton
import proofs.«127898_j27135603376524_2_alg».proof.Proof.Gen.Kernel.Points
import proofs.«127898_j27135603376524_2_alg».proof.Proof.LibSharedFrame
import proofs.«127898_j27135603376524_2_alg».proof.Proof.LibSharedLaunch
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the seven host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes buffer `b` when `b` is none of their seven results. -/
theorem V_of_not_written (c : Dev nD) (b : Ref sig .tc)
    (h : b ≠ main_v0 ∧ b ≠ main_v1 ∧ b ≠ main_v2 ∧ b ≠ main_v3 ∧ b ≠ main_v4 ∧ b ≠ main_v5 ∧ b ≠ main_v6) :
    V m c b = m ((c : Thread nD τ).loc b) :=
  StableHlo.after_of_forall_not_mem (b := Proc.devRef .tc b) _ _ (List.forall_iff_forall_mem.mp (by
    simp only [hostOps0, List.Forall, StableHlo.unary_writes, StableHlo.binary_writes, StableHlo.reshape_writes, Finset.mem_singleton]
    obtain ⟨h0, h1, h2, h3, h4, h5, h6⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)
theorem V_main_arg7 (c : Dev nD) : V m c main_arg7 = m ((c : Thread nD τ).loc main_arg7) := V_of_not_written m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the block index
    has not moved), for any proof data whose array is the region-entry one and whose body leaves the block in place: one
    statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rx : Rect S1x128x2 := Rect.unit (s := S1x128x2) ![0, 0, 0] S1x128x2.size inb_S1x128x2_S1x128x2_0_0_0
abbrev rr : Rect S1x1x128 := Rect.unit (s := S1x1x128) ![0, 0, 0] S1x1x128.size inb_S1x1x128_S1x1x128_0_0_0
abbrev rw1 : Rect S2x128 := Rect.unit (s := S2x128) ![0, 0] S2x128.size inb_S2x128_S2x128_0_0
abbrev rw2 : Rect S128x64 := Rect.unit (s := S128x64) ![0, 0] S128x64.size inb_S128x64_S128x64_0_0
abbrev rb2 : Rect S64 := Rect.unit (s := S64) ![0] S64.size inb_S64_S64_0
abbrev ro : Rect S1x128x128x64 := Rect.unit (s := S1x128x128x64) ![0, 0, 0, 0] S1x128x128x64.size inb_S1x128x128x64_S1x128x128x64_0_0_0_0

/-! ## What the body leaves in the output window's buffer -/

/-- The output window's staging buffer after the body, from the six input blocks: its one store, over the whole block. -/
def out6 (x0 x1 : Vec F S1x128x2 .f32) (x2 : Vec F S1x1x128 .f32) (x3 : Vec F S2x128 .f32) (x4 : Vec F S128x64 .f32) (x5 : Vec F S64 .f32) :
    Vec F S1x128x128x64 .f32 :=
  View.canon [⟨ro, k0_pay1 (k0_pay2 (View.ld x0 rx) (View.ld x1 rx) (View.ld x2 rr) (View.ld x3 rw1)) (View.ld x4 rw2) (View.ld x5 rb2)⟩]

/-- The one store covers the block. -/
theorem cover6 (p0 : Vec F S1x128x128x64 .f32) (y : S1x128x128x64.Idx) :
    ∃ pc ∈ ([⟨ro, p0⟩] : List (View.Piece (Elt F) S1x128x128x64 .f32)), y ∈ pc.1.set :=
  View.cover_of_tiled [⟨ro, p0⟩] S1x128x128x64.size (by rfl) y

/-! ## The body's triple -/

set_option maxHeartbeats 1000000 in
/-- The kernel body on whole staging memrefs, the inputs' at read contents and the output's at anything, runs to the
    continuation holding the inputs' as they were and the output's at `out6` of the inputs'. -/
theorem sound_kernel (c : Dev nD) (E : Set ℕ) (i : grid0.Coords)
    (arg3 : Memref sig .tc .vmem S1x128x2 .f32) (harg3 : arg3.IsWhole) (arg4 : Memref sig .tc .vmem S1x128x2 .f32) (harg4 : arg4.IsWhole)
    (arg5 : Memref sig .tc .vmem S1x1x128 .f32) (harg5 : arg5.IsWhole) (arg6 : Memref sig .tc .vmem S2x128 .f32) (harg6 : arg6.IsWhole)
    (arg7 : Memref sig .tc .vmem S128x64 .f32) (harg7 : arg7.IsWhole) (arg8 : Memref sig .tc .vmem S64 .f32) (harg8 : arg8.IsWhole)
    (arg9 : Memref sig .tc .vmem S1x128x128x64 .f32) (harg9 : arg9.IsWhole)
    (x0 x1 : Vec F S1x128x2 .f32) (x2 : Vec F S1x1x128 .f32) (x3 : Vec F S2x128 .f32) (x4 : Vec F S128x64 .f32) (x5 : Vec F S64 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (out6 x0 x1 x2 x3 x4 x5)) -∗ K ⟨⟩))
      ⊢ wp frame (wpE (defs₀ (F := F)) Variants.none c none) E
          (cc0__kernel i arg3 harg3 arg4 harg4 arg5 harg5 arg6 harg6 arg7 harg7 arg8 harg8 arg9 harg9) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The pipeline's proof data -/

/-- The proof data of the one pipeline on core `c`: the arrays as the region finds them; after the body at point `t` each
    input's buffer at its block and the output's at `out6` of the six input blocks; no invariant; nothing owed; the array
    of context points held in two halves by the two windows that read it, every other input array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = out6 (iblk m c 0 t) (iblk m c 1 t) (iblk m c 2 t) (iblk m c 3 t) (iblk m c 4 t) (iblk m c 5 t) := by
  dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d
theorem before5 (c : Dev nD) (t : Fin cfg0.N) (d) : (dats m 0 c).before 5 t d = iblk m c 5 t := before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The shared array, dealt -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl

/-- The six distinct buffers behind the seven windows' arrays, each whole at its region-entry contents, make the proof data's
    arrays at their shares: the array of context points is split in two halves, one for each of the two windows that read it. -/
theorem dealt (c : Dev nD) : (Pipeline.arrBufs spec0 c (V m c) : sProp 𝕄) ⊢ (dats m 0 c).arrays ((dats m 0 c).arrAt · 0) := by
  have e : (dats m 0 c).arrays ((dats m 0 c).arrAt · 0)
      = bigSep Finset.univ fun w : Fin 7 => (((c.tc : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [e, bigSep_W0]
  have eb : (Pipeline.arrBufs spec0 c (V m c) : sProp 𝕄)
      = iprop((((c.tc : Thread nD τ).loc main_arg1) ↦{fullShare} V m c main_arg1) ∗ (((c.tc : Thread nD τ).loc main_v6) ↦{fullShare} V m c main_v6)
          ∗ (((c.tc : Thread nD τ).loc main_v0) ↦{fullShare} V m c main_v0) ∗ (((c.tc : Thread nD τ).loc main_arg6) ↦{fullShare} V m c main_arg6)
          ∗ (((c.tc : Thread nD τ).loc main_arg7) ↦{fullShare} V m c main_arg7) ∗ (((c.tc : Thread nD τ).loc main_v7) ↦{fullShare} V m c main_v7)) := by
    unfold Pipeline.arrBufs
    exact bigSep_eq_bigSepL_of_eq [main_arg1, main_v6, main_v0, main_arg6, main_arg7, main_v7] (by decide) (by decide) _
  rw [eb]
  rw [share0, share1, share2, share3, share4, share5, share6]
  iintro ⟨H1, H6, H0, Ha6, Ha7, H7⟩
  ihave Hh := (Cert.Lib.SharedLaunch.halves _ _) $$ H1
  icases Hh with ⟨Hl, Hr⟩
  isplitl [Hl]; · iexact Hl
  isplitl [Hr]; · iexact Hr
  isplitl [H6]; · iexact H6
  isplitl [H0]; · iexact H0
  isplitl [Ha6]; · iexact Ha6
  isplitl [Ha7]; · iexact Ha7
  iexact H7

/-! ## The run and the frame -/

set_option backward.isDefEq.respectTransparency.types false in
/-- From any memory with zero counters: every weakly fair execution of @main terminates, and every final state has every
    windowed array at the write-backs of all points over its entry contents and every other unscoped buffer as the region
    found it. -/
theorem run_main : θ_run defs (onTc (τ := τ) (main (F := F))) (s₀ m ρ) (Pipeline.FramePost cfgs (dats m) 0 (V m)) :=
  Cert.Lib.SharedFrame.run_frame cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hdealt := dealt m) (hscratch := fun c => scopedRest0_eq c) (hΦ := fun _ _ => rfl)

/-- The run with the result array named and every argument array unchanged: a windowed input by the library's reading of an
    input array after the run, a bypassing argument by the post's second clause, each then as launched. -/
theorem run_named : θ_run defs (onTc (τ := τ) (main (F := F))) ⟨m, fun _ => 0, ρ⟩ (fun r => ∀ c : Dev nD,
      r.2.mem ((c.tc : Thread nD τ).loc main_v7) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1 6,
      ((h c).2 main_arg0 (Pipeline.mem_restRefs_of _ rfl (by decide))).trans (V_main_arg0 m c),
      ((h c).1 0).trans (((dats m 0 c).arrAt_in 0 rfl _).trans ((A_eq m c 0).trans (V_main_arg1 m c))),
      ((h c).2 main_arg2 (Pipeline.mem_restRefs_of _ rfl (by decide))).trans (V_main_arg2 m c),
      ((h c).2 main_arg3 (Pipeline.mem_restRefs_of _ rfl (by decide))).trans (V_main_arg3 m c),
      ((h c).2 main_arg4 (Pipeline.mem_restRefs_of _ rfl (by decide))).trans (V_main_arg4 m c),
      ((h c).2 main_arg5 (Pipeline.mem_restRefs_of _ rfl (by decide))).trans (V_main_arg5 m c),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c)))⟩) (run_main m ρ)

/-- THE FRAME: the frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_named m ρ)

end Cert.Kernel.Hand

end
-- ==== Proof.FrameKernelIdeal.lean ====
/-
  The frame of `KernelIdeal`: every weakly fair execution of @main terminates, nothing faults, and the argument arrays end unchanged
  — and, beyond the frame, the result array after the run as the write-backs of the 36 grid points over its entry contents.

  @main is seven host operations (two slices of W1, the representation's product with the lower slice, the bias added,
  a reshape) and one pipelined region over the grid 4 × 3 × 3. The region has six input windows and one output window.
  Windows 0 and 1 both read the array of context points: window 0 the row tile `(b, n)`, window 1 the column tile `(b, m)`.
  So that array's points-to is dealt in two halves, one per window; every other windowed array is held whole.
  The body loads the six input blocks whole, computes, loads the output buffer (the value is unused) and stores the whole
  output block; it keeps nothing between points and has no semaphore, scratch or generator use of its own, so the region's
  invariant is empty. The ten unscoped buffers that are no window's array bypass the region and are read back unchanged.
  No host operation writes an argument array, so the region finds every argument as launched.
-/
import proofs.«127898_j27135603376524_2_alg».proof.Proof.Gen.KernelIdeal.Launch
import proofs.«127898_j27135603376524_2_alg».proof.Proof.Gen.KernelIdeal.Skeleton
import proofs.«127898_j27135603376524_2_alg».proof.Proof.Gen.KernelIdeal.Points
import proofs.«127898_j27135603376524_2_alg».proof.Proof.LibSharedFrame
import proofs.«127898_j27135603376524_2_alg».proof.Proof.LibSharedLaunch
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the seven host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes buffer `b` when `b` is none of their seven results. -/
theorem V_of_not_written (c : Dev nD) (b : Ref sig .tc)
    (h : b ≠ main_v0 ∧ b ≠ main_v1 ∧ b ≠ main_v2 ∧ b ≠ main_v3 ∧ b ≠ main_v4 ∧ b ≠ main_v5 ∧ b ≠ main_v6) :
    V m c b = m ((c : Thread nD τ).loc b) :=
  StableHlo.after_of_forall_not_mem (b := Proc.devRef .tc b) _ _ (List.forall_iff_forall_mem.mp (by
    simp only [hostOps0, List.Forall, StableHlo.unary_writes, StableHlo.binary_writes, StableHlo.reshape_writes, Finset.mem_singleton]
    obtain ⟨h0, h1, h2, h3, h4, h5, h6⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)
theorem V_main_arg7 (c : Dev nD) : V m c main_arg7 = m ((c : Thread nD τ).loc main_arg7) := V_of_not_written m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the block index
    has not moved), for any proof data whose array is the region-entry one and whose body leaves the block in place: one
    statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rx : Rect S1x128x2 := Rect.unit (s := S1x128x2) ![0, 0, 0] S1x128x2.size inb_S1x128x2_S1x128x2_0_0_0
abbrev rr : Rect S1x1x128 := Rect.unit (s := S1x1x128) ![0, 0, 0] S1x1x128.size inb_S1x1x128_S1x1x128_0_0_0
abbrev rw1 : Rect S2x128 := Rect.unit (s := S2x128) ![0, 0] S2x128.size inb_S2x128_S2x128_0_0
abbrev rw2 : Rect S128x64 := Rect.unit (s := S128x64) ![0, 0] S128x64.size inb_S128x64_S128x64_0_0
abbrev rb2 : Rect S64 := Rect.unit (s := S64) ![0] S64.size inb_S64_S64_0
abbrev ro : Rect S1x128x128x64 := Rect.unit (s := S1x128x128x64) ![0, 0, 0, 0] S1x128x128x64.size inb_S1x128x128x64_S1x128x128x64_0_0_0_0

/-! ## What the body leaves in the output window's buffer -/

/-- The output window's staging buffer after the body, from the six input blocks: its one store, over the whole block. -/
def out6 (x0 x1 : Vec F S1x128x2 .f32) (x2 : Vec F S1x1x128 .f32) (x3 : Vec F S2x128 .f32) (x4 : Vec F S128x64 .f32) (x5 : Vec F S64 .f32) :
    Vec F S1x128x128x64 .f32 :=
  View.canon [⟨ro, k0_pay1 (k0_pay2 (View.ld x0 rx) (View.ld x1 rx) (View.ld x2 rr) (View.ld x3 rw1)) (View.ld x4 rw2) (View.ld x5 rb2)⟩]

/-- The one store covers the block. -/
theorem cover6 (p0 : Vec F S1x128x128x64 .f32) (y : S1x128x128x64.Idx) :
    ∃ pc ∈ ([⟨ro, p0⟩] : List (View.Piece (Elt F) S1x128x128x64 .f32)), y ∈ pc.1.set :=
  View.cover_of_tiled [⟨ro, p0⟩] S1x128x128x64.size (by rfl) y

/-! ## The body's triple -/

set_option maxHeartbeats 1000000 in
/-- The kernel body on whole staging memrefs, the inputs' at read contents and the output's at anything, runs to the
    continuation holding the inputs' as they were and the output's at `out6` of the inputs'. -/
theorem sound_kernel (c : Dev nD) (E : Set ℕ) (i : grid0.Coords)
    (arg3 : Memref sig .tc .vmem S1x128x2 .f32) (harg3 : arg3.IsWhole) (arg4 : Memref sig .tc .vmem S1x128x2 .f32) (harg4 : arg4.IsWhole)
    (arg5 : Memref sig .tc .vmem S1x1x128 .f32) (harg5 : arg5.IsWhole) (arg6 : Memref sig .tc .vmem S2x128 .f32) (harg6 : arg6.IsWhole)
    (arg7 : Memref sig .tc .vmem S128x64 .f32) (harg7 : arg7.IsWhole) (arg8 : Memref sig .tc .vmem S64 .f32) (harg8 : arg8.IsWhole)
    (arg9 : Memref sig .tc .vmem S1x128x128x64 .f32) (harg9 : arg9.IsWhole)
    (x0 x1 : Vec F S1x128x2 .f32) (x2 : Vec F S1x1x128 .f32) (x3 : Vec F S2x128 .f32) (x4 : Vec F S128x64 .f32) (x5 : Vec F S64 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare (out6 x0 x1 x2 x3 x4 x5)) -∗ K ⟨⟩))
      ⊢ wp frame (wpE (defs₀ (F := F)) Variants.none c none) E
          (cc0__kernel i arg3 harg3 arg4 harg4 arg5 harg5 arg6 harg6 arg7 harg7 arg8 harg8 arg9 harg9) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The pipeline's proof data -/

/-- The proof data of the one pipeline on core `c`: the arrays as the region finds them; after the body at point `t` each
    input's buffer at its block and the output's at `out6` of the six input blocks; no invariant; nothing owed; the array
    of context points held in two halves by the two windows that read it, every other input array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = out6 (iblk m c 0 t) (iblk m c 1 t) (iblk m c 2 t) (iblk m c 3 t) (iblk m c 4 t) (iblk m c 5 t) := by
  dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d
theorem before5 (c : Dev nD) (t : Fin cfg0.N) (d) : (dats m 0 c).before 5 t d = iblk m c 5 t := before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The shared array, dealt -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl

/-- The six distinct buffers behind the seven windows' arrays, each whole at its region-entry contents, make the proof data's
    arrays at their shares: the array of context points is split in two halves, one for each of the two windows that read it. -/
theorem dealt (c : Dev nD) : (Pipeline.arrBufs spec0 c (V m c) : sProp 𝕄) ⊢ (dats m 0 c).arrays ((dats m 0 c).arrAt · 0) := by
  have e : (dats m 0 c).arrays ((dats m 0 c).arrAt · 0)
      = bigSep Finset.univ fun w : Fin 7 => (((c.tc : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [e, bigSep_W0]
  have eb : (Pipeline.arrBufs spec0 c (V m c) : sProp 𝕄)
      = iprop((((c.tc : Thread nD τ).loc main_arg1) ↦{fullShare} V m c main_arg1) ∗ (((c.tc : Thread nD τ).loc main_v6) ↦{fullShare} V m c main_v6)
          ∗ (((c.tc : Thread nD τ).loc main_v0) ↦{fullShare} V m c main_v0) ∗ (((c.tc : Thread nD τ).loc main_arg6) ↦{fullShare} V m c main_arg6)
          ∗ (((c.tc : Thread nD τ).loc main_arg7) ↦{fullShare} V m c main_arg7) ∗ (((c.tc : Thread nD τ).loc main_v7) ↦{fullShare} V m c main_v7)) := by
    unfold Pipeline.arrBufs
    exact bigSep_eq_bigSepL_of_eq [main_arg1, main_v6, main_v0, main_arg6, main_arg7, main_v7] (by decide) (by decide) _
  rw [eb]
  rw [share0, share1, share2, share3, share4, share5, share6]
  iintro ⟨H1, H6, H0, Ha6, Ha7, H7⟩
  ihave Hh := (Cert.Lib.SharedLaunch.halves _ _) $$ H1
  icases Hh with ⟨Hl, Hr⟩
  isplitl [Hl]; · iexact Hl
  isplitl [Hr]; · iexact Hr
  isplitl [H6]; · iexact H6
  isplitl [H0]; · iexact H0
  isplitl [Ha6]; · iexact Ha6
  isplitl [Ha7]; · iexact Ha7
  iexact H7

/-! ## The run and the frame -/

set_option backward.isDefEq.respectTransparency.types false in
/-- From any memory with zero counters: every weakly fair execution of @main terminates, and every final state has every
    windowed array at the write-backs of all points over its entry contents and every other unscoped buffer as the region
    found it. -/
theorem run_main : θ_run defs (onTc (τ := τ) (main (F := F))) (s₀ m ρ) (Pipeline.FramePost cfgs (dats m) 0 (V m)) :=
  Cert.Lib.SharedFrame.run_frame cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hdealt := dealt m) (hscratch := fun c => scopedRest0_eq c) (hΦ := fun _ _ => rfl)

/-- The run with the result array named and every argument array unchanged: a windowed input by the library's reading of an
    input array after the run, a bypassing argument by the post's second clause, each then as launched. -/
theorem run_named : θ_run defs (onTc (τ := τ) (main (F := F))) ⟨m, fun _ => 0, ρ⟩ (fun r => ∀ c : Dev nD,
      r.2.mem ((c.tc : Thread nD τ).loc main_v7) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1 6,
      ((h c).2 main_arg0 (Pipeline.mem_restRefs_of _ rfl (by decide))).trans (V_main_arg0 m c),
      ((h c).1 0).trans (((dats m 0 c).arrAt_in 0 rfl _).trans ((A_eq m c 0).trans (V_main_arg1 m c))),
      ((h c).2 main_arg2 (Pipeline.mem_restRefs_of _ rfl (by decide))).trans (V_main_arg2 m c),
      ((h c).2 main_arg3 (Pipeline.mem_restRefs_of _ rfl (by decide))).trans (V_main_arg3 m c),
      ((h c).2 main_arg4 (Pipeline.mem_restRefs_of _ rfl (by decide))).trans (V_main_arg4 m c),
      ((h c).2 main_arg5 (Pipeline.mem_restRefs_of _ rfl (by decide))).trans (V_main_arg5 m c),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c)))⟩) (run_main m ρ)

/-- THE FRAME: the frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_named m ρ)

end Cert.KernelIdeal.Hand

end
-- ==== Proof.KernelPay.lean ====
/-
  The kernel body's arithmetic, read at one entry of what it stores, at the ideal values.

  The body receives a row tile of points, a column tile of points, the representation's share of the first layer
  (one row vector), the first two rows of the first layer's matrix, the second layer's matrix and its bias.
  It forms for every row point p and hidden unit h the number
  a(p, h) = x(p,0)·W(0,h) + x(p,1)·W(1,h) + c(h), for every column point q the number
  b(q, h) = y(q,0)·W(0,h) + y(q,1)·W(1,h), the hidden layer max (a(p,h) − b(q,h)) 0 over the grid of pairs (p, q),
  lays the pairs out as 16384 rows (row p·128 + q), multiplies by the second layer's matrix, adds its bias along
  the rows and lays the rows out again as pairs. Every step but the product is a re-indexing or acts entry by entry;
  each re-indexing is read here at coordinates, then the two halves are put together.
-/
import proofs.«127898_j27135603376524_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

variable {α : Type}

/-! ## Re-indexings read at coordinates -/

/-- A column [128, 1] spread over [128, 128] reads, at (p, h), the column's entry p. -/
theorem bcast_col_apply (y : S128x1.Idx → α) (hb : S128x1.Broadcasts S128x128) (p h : Fin 128) :
    broadcastTo S128x128 y hb (ix2 p h) = y (ix2 p (0 : Fin 1)) := by
  refine broadcastTo_apply y hb (ix2 p h) (ix2 p (0 : Fin 1)) fun a => ?_
  match a with
  | ⟨0, _⟩ => show p.val = if (128 : Nat) = 1 then 0 else p.val; rw [if_neg (by decide)]
  | ⟨1, _⟩ => show (0 : Nat) = if (1 : Nat) = 1 then 0 else h.val; rw [if_pos rfl]

/-- An array [128, 1, 128] spread along its middle axis reads, at (p, q, h), its entry (p, 0, h). -/
theorem bcast_mid_apply (y : S128x1x128.Idx → α) (hb : S128x1x128.Broadcasts S128x128x128) (p q h : Fin 128) :
    broadcastTo S128x128x128 y hb (ix3 p q h) = y (ix3 p (0 : Fin 1) h) := by
  refine broadcastTo_apply y hb (ix3 p q h) (ix3 p (0 : Fin 1) h) fun a => ?_
  match a with
  | ⟨0, _⟩ => show p.val = if (128 : Nat) = 1 then 0 else p.val; rw [if_neg (by decide)]
  | ⟨1, _⟩ => show (0 : Nat) = if (1 : Nat) = 1 then 0 else q.val; rw [if_pos rfl]
  | ⟨2, _⟩ => show h.val = if (128 : Nat) = 1 then 0 else h.val; rw [if_neg (by decide)]

/-- An array [1, 128, 128] spread along its leading axis reads, at (p, q, h), its entry (0, q, h). -/
theorem bcast_lead_apply (y : S1x128x128.Idx → α) (hb : S1x128x128.Broadcasts S128x128x128) (p q h : Fin 128) :
    broadcastTo S128x128x128 y hb (ix3 p q h) = y (ix3 (0 : Fin 1) q h) := by
  refine broadcastTo_apply y hb (ix3 p q h) (ix3 (0 : Fin 1) q h) fun a => ?_
  match a with
  | ⟨0, _⟩ => show (0 : Nat) = if (1 : Nat) = 1 then 0 else p.val; rw [if_pos rfl]
  | ⟨1, _⟩ => show q.val = if (128 : Nat) = 1 then 0 else q.val; rw [if_neg (by decide)]
  | ⟨2, _⟩ => show h.val = if (128 : Nat) = 1 then 0 else h.val; rw [if_neg (by decide)]

/-- [1, 1, 128] viewed as [128]. -/
theorem cast_11a_a_apply (y : S1x1x128.Idx → α) (hc : S1x1x128.ShapeCasts S128) (h : Fin 128) :
    shapeCast S128 y hc (ix1 h) = y (ix3 (0 : Fin 1) (0 : Fin 1) h) :=
  shapeCast_apply y hc _ _ (by
    rw [Shape.rowMajor_val_three, Shape.rowMajor_val_one]
    show (0 * 1 + 0) * 128 + h.val = h.val
    omega)

/-- [128, 128] viewed as [128, 1, 128]. -/
theorem cast_ab_a1b_apply (y : S128x128.Idx → α) (hc : S128x128.ShapeCasts S128x1x128) (p : Fin 128) (u : Fin 1) (h : Fin 128) :
    shapeCast S128x1x128 y hc (ix3 p u h) = y (ix2 p h) :=
  shapeCast_apply y hc _ _ (by
    have hu : u.val = 0 := by omega
    rw [Shape.rowMajor_val_three, Shape.rowMajor_val_two]
    show p.val * 128 + h.val = (p.val * 1 + u.val) * 128 + h.val
    omega)

/-- The grid of pairs [128, 128, 128] laid out as 16384 rows: row p·128 + q is the pair (p, q). -/
theorem cast_pairs_rows_apply (y : S128x128x128.Idx → α) (hc : S128x128x128.ShapeCasts S16384x128)
    (p q h : Fin 128) (r : Fin 16384) (hr : r.val = p.val * 128 + q.val) :
    shapeCast S16384x128 y hc (ix2 r h) = y (ix3 p q h) :=
  shapeCast_apply y hc _ _ (by
    rw [Shape.rowMajor_val_three, Shape.rowMajor_val_two]
    show (p.val * 128 + q.val) * 128 + h.val = r.val * 128 + h.val
    rw [hr])

/-- 16384 rows of 64 laid out as the grid of pairs [128, 128, 64]: the pair (p, q) is row p·128 + q. -/
theorem cast_rows_pairs_apply (y : S16384x64.Idx → α) (hc : S16384x64.ShapeCasts S128x128x64)
    (p q : Fin 128) (o : Fin 64) (r : Fin 16384) (hr : r.val = p.val * 128 + q.val) :
    shapeCast S128x128x64 y hc (ix3 p q o) = y (ix2 r o) :=
  shapeCast_apply y hc _ _ (by
    rw [Shape.rowMajor_val_three, Shape.rowMajor_val_two]
    show r.val * 64 + o.val = (p.val * 128 + q.val) * 64 + o.val
    rw [hr])

/-- The first column of a [128, 2] array, as a [128, 1] array. -/
theorem slice_col0_apply (X : S128x2.Idx → α) (hs : S128x2.Slices ![0, 0] S128x1) (p : Fin 128) :
    extractStridedSlice S128x1 ![0, 0] X hs (ix2 p (0 : Fin 1)) = X (ix2 p (0 : Fin 2)) :=
  slice2_axis1_apply 0 X hs p (0 : Fin 1) (0 : Fin 2) rfl

/-- The second column of a [128, 2] array, as a [128, 1] array. -/
theorem slice_col1_apply (X : S128x2.Idx → α) (hs : S128x2.Slices ![0, 1] S128x1) (p : Fin 128) :
    extractStridedSlice S128x1 ![0, 1] X hs (ix2 p (0 : Fin 1)) = X (ix2 p (1 : Fin 2)) :=
  slice2_axis1_apply 1 X hs p (0 : Fin 1) (1 : Fin 2) rfl

/-- The first row of a [2, 128] array, as a [1, 128] array. -/
theorem slice_row0_apply (X : S2x128.Idx → α) (hs : S2x128.Slices ![0, 0] S1x128) (h : Fin 128) :
    extractStridedSlice S1x128 ![0, 0] X hs (ix2 (0 : Fin 1) h) = X (ix2 (0 : Fin 2) h) :=
  slice2_axis0_apply 0 X hs (0 : Fin 1) h (0 : Fin 2) rfl

/-- The second row of a [2, 128] array, as a [1, 128] array. -/
theorem slice_row1_apply (X : S2x128.Idx → α) (hs : S2x128.Slices ![1, 0] S1x128) (h : Fin 128) :
    extractStridedSlice S1x128 ![1, 0] X hs (ix2 (0 : Fin 1) h) = X (ix2 (1 : Fin 2) h) :=
  slice2_axis0_apply 1 X hs (0 : Fin 1) h (1 : Fin 2) rfl

/-! ## The bf16 zero word -/

/-- The bf16 word of zero is the extended real zero. -/
theorem ofBits_bf16_zero : Ideal.ofBits .bf16 0x0000#16 = 0 := by simp [Ideal.ofBits, Ideal.ieee]

/-- So is the scalar constant the body compares against. -/
theorem scalar_bf16_zero : Scalar.ofBits (F := Ideal) .bf16 0x0000#16 = 0 := ofBits_bf16_zero

/-! ## The product with the second layer's matrix -/

/-- The left operand's row coordinate at output entry j is j's row, whatever the summation index. -/
theorem lhs_row (j : S16384x64.Idx) (k : dot_S16384x128_S128x64_S16384x64_1_0_0_1_n_n.contr.Idx) :
    (dot_S16384x128_S128x64_S16384x64_1_0_0_1_n_n.lhsIdx j k 0).val = (j 0).val := by
  unfold DotDims.lhsIdx
  rw [dif_neg (show ¬(0 : Fin S16384x128.rank) ∈ dot_S16384x128_S128x64_S16384x64_1_0_0_1_n_n.lhsBatch by decide),
    dif_pos (show (0 : Fin S16384x128.rank) ∈ dot_S16384x128_S128x64_S16384x64_1_0_0_1_n_n.lhsNonContracting by decide)]
  rfl

/-- The left operand's column coordinate is the summation index. -/
theorem lhs_col (j : S16384x64.Idx) (k : dot_S16384x128_S128x64_S16384x64_1_0_0_1_n_n.contr.Idx) :
    (dot_S16384x128_S128x64_S16384x64_1_0_0_1_n_n.lhsIdx j k 1).val = (k ⟨0, by decide⟩).val :=
  dot_S16384x128_S128x64_S16384x64_1_0_0_1_n_n.lhsIdx_val_of_single rfl j k

/-- The right operand's row coordinate is the summation index. -/
theorem rhs_row (j : S16384x64.Idx) (k : dot_S16384x128_S128x64_S16384x64_1_0_0_1_n_n.contr.Idx) :
    (dot_S16384x128_S128x64_S16384x64_1_0_0_1_n_n.rhsIdx j k 0).val = (k ⟨0, by decide⟩).val :=
  dot_S16384x128_S128x64_S16384x64_1_0_0_1_n_n.rhsIdx_val_of_single rfl j k

/-- The right operand's column coordinate at output entry j is j's column. -/
theorem rhs_col (j : S16384x64.Idx) (k : dot_S16384x128_S128x64_S16384x64_1_0_0_1_n_n.contr.Idx) :
    (dot_S16384x128_S128x64_S16384x64_1_0_0_1_n_n.rhsIdx j k 1).val = (j 1).val := by
  unfold DotDims.rhsIdx
  rw [dif_neg (show ¬(1 : Fin S128x64.rank) ∈ dot_S16384x128_S128x64_S16384x64_1_0_0_1_n_n.rhsBatch by decide),
    dif_pos (show (1 : Fin S128x64.rank) ∈ dot_S16384x128_S128x64_S16384x64_1_0_0_1_n_n.rhsNonContracting by decide)]
  rfl

/-- The matrix product into a zero accumulator, at row r and column o: the sum over the 128 hidden units. -/
theorem matmul_rows_apply (A : FVec Ideal S16384x128 .bf16) (B : FVec Ideal S128x64 .bf16) (r : Fin 16384) (o : Fin 64) :
    matmul dot_S16384x128_S128x64_S16384x64_1_0_0_1_n_n none A B (constant (F := Ideal) S16384x64 .f32 0x00000000#32) (ix2 r o)
      = ∑ h : Fin 128, A (ix2 r h) * B (ix2 h o) := by
  show FloatOps.matmul dot_S16384x128_S128x64_S16384x64_1_0_0_1_n_n none A B (constant (F := Ideal) S16384x64 .f32 0x00000000#32) (ix2 r o) = _
  rw [Ideal.matmul_constant_zero_apply,
    ← Equiv.sum_comp (contrEquiv1 dot_S16384x128_S128x64_S16384x64_1_0_0_1_n_n 128 rfl rfl).symm]
  refine Finset.sum_congr rfl fun k _ => ?_
  have hk := contrEquiv1_symm_val dot_S16384x128_S128x64_S16384x64_1_0_0_1_n_n 128 rfl rfl k
  have el : dot_S16384x128_S128x64_S16384x64_1_0_0_1_n_n.lhsIdx (ix2 r o)
      ((contrEquiv1 dot_S16384x128_S128x64_S16384x64_1_0_0_1_n_n 128 rfl rfl).symm k) = ix2 r k :=
    funext fun a => Fin.ext (by
      match a with
      | ⟨0, _⟩ => exact lhs_row _ _
      | ⟨1, _⟩ => exact (lhs_col _ _).trans hk)
  have er : dot_S16384x128_S128x64_S16384x64_1_0_0_1_n_n.rhsIdx (ix2 r o)
      ((contrEquiv1 dot_S16384x128_S128x64_S16384x64_1_0_0_1_n_n 128 rfl rfl).symm k) = ix2 k o :=
    funext fun a => Fin.ext (by
      match a with
      | ⟨0, _⟩ => exact (rhs_row _ _).trans hk
      | ⟨1, _⟩ => exact rhs_col _ _)
  rw [el, er]

/-! ## The two halves of the body at an entry -/

/-- The hidden layer over the grid of pairs, laid out in rows: at row p·128 + q and hidden unit h it is
    max (a(p,h) − b(q,h)) 0. -/
theorem pay2_apply (v0 v2 : Vec Ideal S1x128x2 .f32) (v4 : Vec Ideal S1x1x128 .f32) (v6 : Vec Ideal S2x128 .f32)
    (p q h : Fin 128) (r : Fin 16384) (hr : r.val = p.val * 128 + q.val) :
    k0_pay2 (F := Ideal) v0 v2 v4 v6 (ix2 r h)
      = max (((v0 (ix3 (0 : Fin 1) p (0 : Fin 2)) * v6 (ix2 (0 : Fin 2) h) + v0 (ix3 (0 : Fin 1) p (1 : Fin 2)) * v6 (ix2 (1 : Fin 2) h))
                + v4 (ix3 (0 : Fin 1) (0 : Fin 1) h))
              - (v2 (ix3 (0 : Fin 1) q (0 : Fin 2)) * v6 (ix2 (0 : Fin 2) h) + v2 (ix3 (0 : Fin 1) q (1 : Fin 2)) * v6 (ix2 (1 : Fin 2) h))) 0 := by
  unfold k0_pay2
  refine (cast_pairs_rows_apply _ _ p q h r hr).trans ?_
  simp only [maximumf_apply, subf_apply, addf_apply, mulf_apply, truncf_apply, broadcast_apply, scalar_bf16_zero,
    bcast_mid_apply, bcast_lead_apply, cast_ab_a1b_apply, shapeCast_ab_1ab_apply, bcast_col_apply, broadcastTo_1b_ab_apply,
    slice_col0_apply, slice_col1_apply, slice_row0_apply, slice_row1_apply, shapeCast_1ab_ab_apply, shapeCast_self,
    shapeCast_a_1a_apply, cast_11a_a_apply]

/-- What the body stores, from the hidden layer's rows: at the pair (p, q) and output o, the row p·128 + q times the
    second layer's column o, plus the bias. -/
theorem pay1_apply (v42 : FVec Ideal S16384x128 .bf16) (v43 : Vec Ideal S128x64 .f32) (v46 : Vec Ideal S64 .f32)
    (p q : Fin 128) (o : Fin 64) (r : Fin 16384) (hr : r.val = p.val * 128 + q.val) :
    k0_pay1 (F := Ideal) v42 v43 v46 (ix4 (0 : Fin 1) p q o)
      = (∑ h : Fin 128, v42 (ix2 r h) * v43 (ix2 h o)) + v46 (ix1 o) := by
  unfold k0_pay1
  refine (shapeCast_abc_1abc_apply _ _ (0 : Fin 1) p q o).trans ?_
  refine (cast_rows_pairs_apply _ _ p q o r hr).trans ?_
  simp only [addf_apply, matmul_rows_apply, truncf_apply, broadcastTo_1b_ab_apply, shapeCast_a_1a_apply]

/-- The body at an entry: the second layer over the hidden layer max (a(p,h) − b(q,h)) 0. -/
theorem pay_apply (v0 v2 : Vec Ideal S1x128x2 .f32) (v4 : Vec Ideal S1x1x128 .f32) (v6 : Vec Ideal S2x128 .f32)
    (v43 : Vec Ideal S128x64 .f32) (v46 : Vec Ideal S64 .f32) (p q : Fin 128) (o : Fin 64) :
    k0_pay1 (F := Ideal) (k0_pay2 (F := Ideal) v0 v2 v4 v6) v43 v46 (ix4 (0 : Fin 1) p q o)
      = (∑ h : Fin 128,
            max (((v0 (ix3 (0 : Fin 1) p (0 : Fin 2)) * v6 (ix2 (0 : Fin 2) h) + v0 (ix3 (0 : Fin 1) p (1 : Fin 2)) * v6 (ix2 (1 : Fin 2) h))
                    + v4 (ix3 (0 : Fin 1) (0 : Fin 1) h))
                  - (v2 (ix3 (0 : Fin 1) q (0 : Fin 2)) * v6 (ix2 (0 : Fin 2) h) + v2 (ix3 (0 : Fin 1) q (1 : Fin 2)) * v6 (ix2 (1 : Fin 2) h))) 0
              * v43 (ix2 h o))
        + v46 (ix1 o) := by
  have hlt : p.val * 128 + q.val < 16384 := by omega
  rw [pay1_apply (k0_pay2 (F := Ideal) v0 v2 v4 v6) v43 v46 p q o ⟨p.val * 128 + q.val, hlt⟩ rfl]
  refine congrArg (· + v46 (ix1 o)) (Finset.sum_congr rfl fun h _ => ?_)
  rw [pay2_apply v0 v2 v4 v6 p q h ⟨p.val * 128 + q.val, hlt⟩ rfl]

end Cert.KernelIdeal.Pay

end
-- ==== Proof.Spec.lean ====
/-
  The function both programs compute, stated once over plain arrays of extended reals.

  Inputs: a representation `r` (4 × 128), context points `x` (4 × 384 × 2), a first layer `W1` (130 × 128: rows 0 and 1
  act on a difference of two points, rows 2 … 129 on the representation) with bias `b1`, a second layer `W2` (128 × 64)
  with bias `b2`. For a batch `b` and an ordered pair of points `(i, j)` the hidden unit `h` is
  `max 0 (Σₖ z(k)·W1(k,h) + b1(h))` where `z = (x(b,i,·) − x(b,j,·), r(b,·))` joined, and the output `o` is
  `Σₕ hidden(h)·W2(h,o) + b2(o)`.

  The first layer is linear, so the hidden unit's argument splits as
  `(x(b,i,0)·W1(0,h) + x(b,i,1)·W1(1,h) + (Σₖ r(b,k)·W1(k+2,h) + b1(h))) − (x(b,j,0)·W1(0,h) + x(b,j,1)·W1(1,h))`:
  the two forms `hidR` (joined) and `hidK` (split) below. They agree wherever the entries involved are real numbers
  (distributing a product over a difference fails at infinities), which is what the bridge between them assumes.
-/
import Idealize.ShloMosaic.PureOps.Ideal
import Idealize.ShloMosaic.Lib.ValueIdx

noncomputable section

namespace Cert.Spec

open Idealize.ShloMosaic Idealize.ShloMosaic.ValueIdx

abbrev SR : Shape := ⟨2, ![4, 128]⟩
abbrev SX : Shape := ⟨3, ![4, 384, 2]⟩
abbrev SW1 : Shape := ⟨2, ![130, 128]⟩
abbrev SB1 : Shape := ⟨1, ![128]⟩
abbrev SW2 : Shape := ⟨2, ![128, 64]⟩
abbrev SB2 : Shape := ⟨1, ![64]⟩
abbrev SO : Shape := ⟨4, ![4, 384, 384, 64]⟩

variable (r : SR.Idx → EReal) (x : SX.Idx → EReal) (W1 : SW1.Idx → EReal) (b1 : SB1.Idx → EReal)
  (W2 : SW2.Idx → EReal) (b2 : SB2.Idx → EReal)

/-- The representation's share of the first layer at batch `b`, the bias included: `Σₖ r(b,k)·W1(k+2,h) + b1(h)`. -/
def rc (b : Fin 4) (h : Fin 128) : EReal :=
  (∑ k : Fin 128, r (ix2 b k) * W1 (ix2 (⟨k.val + 2, by omega⟩ : Fin 130) h)) + b1 (ix1 h)

/-- One point's share of the first layer: `x(b,i,0)·W1(0,h) + x(b,i,1)·W1(1,h)`. -/
def lin (b : Fin 4) (i : Fin 384) (h : Fin 128) : EReal :=
  x (ix3 b i (0 : Fin 2)) * W1 (ix2 (0 : Fin 130) h) + x (ix3 b i (1 : Fin 2)) * W1 (ix2 (1 : Fin 130) h)

/-- The hidden unit, first layer split by linearity. -/
def hidK (b : Fin 4) (i j : Fin 384) (h : Fin 128) : EReal :=
  max ((lin x W1 b i h + rc r W1 b1 b h) - lin x W1 b j h) 0

/-- The joined input of the first layer: the difference of the two points, then the representation. -/
def z (b : Fin 4) (i j : Fin 384) (k : Fin 130) : EReal :=
  if hk : k.val < 2 then x (ix3 b i (⟨k.val, hk⟩ : Fin 2)) - x (ix3 b j (⟨k.val, hk⟩ : Fin 2))
  else r (ix2 b (⟨k.val - 2, by omega⟩ : Fin 128))

/-- The hidden unit, first layer applied to the joined input. -/
def hidR (b : Fin 4) (i j : Fin 384) (h : Fin 128) : EReal :=
  max ((∑ k : Fin 130, z r x b i j k * W1 (ix2 k h)) + b1 (ix1 h)) 0

/-- The second layer over a hidden layer `hid`. -/
def out (hid : Fin 4 → Fin 384 → Fin 384 → Fin 128 → EReal) : SO.Idx → EReal := fun y =>
  (∑ h : Fin 128, hid (y 0) (y 1) (y 2) h * W2 (ix2 h (y 3))) + b2 (ix1 (y 3))

/-- The result with the first layer split. -/
def GK : SO.Idx → EReal := out W2 b2 (hidK r x W1 b1)

/-- The result with the first layer on the joined input. -/
def GR : SO.Idx → EReal := out W2 b2 (hidR r x W1 b1)

end Cert.Spec

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.KernelEntry.lean ====
/-
  What the region finds, at one entry, in the two arrays the host operations before it wrote, at the ideal values.

  The first layer's matrix W1 has 130 rows: rows 0 and 1 act on a point, rows 2 … 129 on the representation r.
  Before the region the host cuts W1 into its first two rows and its last 128 rows, multiplies r (4 × 128) by the
  last 128 rows, adds the bias b1 to every row of the product, and views the 4 × 128 result as 4 × 1 × 128.
  So the array of the first two rows reads W1(d, h) at (d, h), and the 4 × 1 × 128 array reads
  Σₖ r(b,k)·W1(k+2,h) + b1(h) at (b, 0, h): the representation's share of the first layer.
-/
import proofs.«127898_j27135603376524_2_alg».proof.Proof.Gen.KernelIdeal.Launch
import proofs.«127898_j27135603376524_2_alg».proof.Proof.Spec
import proofs.«127898_j27135603376524_2_alg».proof.Proof.LibDotEntry
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Entry

open Cert.KernelIdeal Cert.KernelIdeal.Gen Idealize.ShloMosaic Idealize.ShloMosaic.TcCoe Idealize.ShloMosaic.ValueIdx Idealize.SL.Sem

/-! ## Re-indexings read at coordinates -/

section Layout
variable {α : Type}

/-- [4, 128] viewed as [4, 1, 128]. -/
theorem cast_ab_a1b_apply (y : S4x128.Idx → α) (hc : S4x128.ShapeCasts S4x1x128) (b : Fin 4) (u : Fin 1) (h : Fin 128) :
    shapeCast S4x1x128 y hc (ix3 b u h) = y (ix2 b h) :=
  shapeCast_apply y hc _ _ (by
    have hu : u.val = 0 := by omega
    rw [Shape.rowMajor_val_three, Shape.rowMajor_val_two]
    show b.val * 128 + h.val = (b.val * 1 + u.val) * 128 + h.val
    omega)

/-- The last 128 rows of a [130, 128] array: row k of the cut is row k + 2. -/
theorem slice_rows2_apply (X : S130x128.Idx → α) (hs : S130x128.Slices ![2, 0] S128x128) (k h : Fin 128) :
    extractStridedSlice S128x128 ![2, 0] X hs (ix2 k h) = X (ix2 (⟨k.val + 2, by omega⟩ : Fin 130) h) :=
  slice2_axis0_apply 2 X hs k h (⟨k.val + 2, by omega⟩ : Fin 130) (Nat.add_comm _ _)

/-- The first 2 rows of a [130, 128] array. -/
theorem slice_rows0_apply (X : S130x128.Idx → α) (hs : S130x128.Slices ![0, 0] S2x128) (d : Fin 2) (h : Fin 128) :
    extractStridedSlice S2x128 ![0, 0] X hs (ix2 d h) = X (ix2 (⟨d.val, by omega⟩ : Fin 130) h) :=
  slice2_axis0_apply 0 X hs d h (⟨d.val, by omega⟩ : Fin 130) (Nat.zero_add _).symm

/-- A vector [128] laid out as the one row of [1, 128]. -/
theorem bcast_row_apply (y : S128.Idx → α) (hb : S128.BroadcastsInDim S1x128 (![1] : Fin 1 → Fin S1x128.rank)) (u : Fin 1) (h : Fin 128) :
    broadcastInDim S1x128 ![1] hb y (ix2 u h) = y (ix1 h) :=
  broadcastInDim_apply _ hb y (ix2 u h) (ix1 h) (fun a => match a with
    | ⟨0, _⟩ => by show h.val = if (128 : Nat) = 1 then 0 else h.val; rw [if_neg (by decide)])

/-- The one row of [1, 128] repeated down [4, 128]. -/
theorem bcast_rows_apply (y : S1x128.Idx → α) (hb : S1x128.BroadcastsInDim S4x128 (![0, 1] : Fin 2 → Fin S4x128.rank)) (b : Fin 4) (h : Fin 128) :
    broadcastInDim S4x128 ![0, 1] hb y (ix2 b h) = y (ix2 (0 : Fin 1) h) :=
  broadcastInDim_apply _ hb y (ix2 b h) (ix2 (0 : Fin 1) h) (fun a => match a with
    | ⟨0, _⟩ => by show (0 : Nat) = if (1 : Nat) = 1 then 0 else b.val; rw [if_pos rfl]
    | ⟨1, _⟩ => by show h.val = if (128 : Nat) = 1 then 0 else h.val; rw [if_neg (by decide)])

end Layout

/-! ## The host's product of the representation with the last 128 rows -/

/-- The left factor's row coordinate at output entry j is j's row. -/
theorem lhs_row (j : S4x128.Idx) (k : dot_S4x128_S128x128_S4x128_1_0_0_1_n_n.contr.Idx) :
    (dot_S4x128_S128x128_S4x128_1_0_0_1_n_n.lhsIdx j k 0).val = (j 0).val := by
  unfold DotDims.lhsIdx
  rw [dif_neg (show ¬(0 : Fin S4x128.rank) ∈ dot_S4x128_S128x128_S4x128_1_0_0_1_n_n.lhsBatch by decide),
    dif_pos (show (0 : Fin S4x128.rank) ∈ dot_S4x128_S128x128_S4x128_1_0_0_1_n_n.lhsNonContracting by decide)]
  rfl

/-- The left factor's column coordinate is the summation index. -/
theorem lhs_col (j : S4x128.Idx) (k : dot_S4x128_S128x128_S4x128_1_0_0_1_n_n.contr.Idx) :
    (dot_S4x128_S128x128_S4x128_1_0_0_1_n_n.lhsIdx j k 1).val = (k ⟨0, by decide⟩).val :=
  dot_S4x128_S128x128_S4x128_1_0_0_1_n_n.lhsIdx_val_of_single rfl j k

/-- The right factor's row coordinate is the summation index. -/
theorem rhs_row (j : S4x128.Idx) (k : dot_S4x128_S128x128_S4x128_1_0_0_1_n_n.contr.Idx) :
    (dot_S4x128_S128x128_S4x128_1_0_0_1_n_n.rhsIdx j k 0).val = (k ⟨0, by decide⟩).val :=
  dot_S4x128_S128x128_S4x128_1_0_0_1_n_n.rhsIdx_val_of_single rfl j k

/-- The right factor's column coordinate at output entry j is j's column. -/
theorem rhs_col (j : S4x128.Idx) (k : dot_S4x128_S128x128_S4x128_1_0_0_1_n_n.contr.Idx) :
    (dot_S4x128_S128x128_S4x128_1_0_0_1_n_n.rhsIdx j k 1).val = (j 1).val := by
  unfold DotDims.rhsIdx
  rw [dif_neg (show ¬(1 : Fin S128x128.rank) ∈ dot_S4x128_S128x128_S4x128_1_0_0_1_n_n.rhsBatch by decide),
    dif_pos (show (1 : Fin S128x128.rank) ∈ dot_S4x128_S128x128_S4x128_1_0_0_1_n_n.rhsNonContracting by decide)]
  rfl

/-- The product at entry (b, h): the sum over the 128 coordinates of the representation. -/
theorem dot_apply (R : FVec Ideal S4x128 .f32) (W : FVec Ideal S128x128 .f32) (b : Fin 4) (h : Fin 128) :
    Host.dotGeneral (F := Ideal) dot_S4x128_S128x128_S4x128_1_0_0_1_n_n none R W (ix2 b h)
      = ∑ k : Fin 128, R (ix2 b k) * W (ix2 k h) :=
  Cert.Lib.DotEntry.dotGeneral_ix2 dot_S4x128_S128x128_S4x128_1_0_0_1_n_n rfl rfl lhs_row lhs_col rhs_row rhs_col R W b h

/-! ## The two arrays at an entry -/

variable (m : (ℓ : Loc nD τ sig) → Buf (Elt Ideal) ℓ)

/-- The buffers as the region finds them: after the seven host operations. -/
abbrev V (c : Dev nD) (b : Ref sig .tc) : Buf (Elt Ideal) ((c : Thread nD τ).loc b) :=
  StableHlo.after (hostOps0 (F := Ideal)) (fun b => m (c, b)) b

/-- The array of W1's first two rows, as the host operations compose it. -/
theorem V_v0_eq (c : Dev nD) :
    (V m c main_v0 : S2x128.Idx → EReal)
      = extractStridedSlice S2x128 ![0, 0] (m ((c : Thread nD τ).loc main_arg4) : FVec Ideal S130x128 .f32) slices_S130x128_S2x128_0_0 := by
  dsimp only [V, hostOps0]
  after_results

/-- The 4 × 1 × 128 array, as the host operations compose it. -/
theorem V_v6_eq (c : Dev nD) :
    (V m c main_v6 : S4x1x128.Idx → EReal)
      = shapeCast S4x1x128
          (addf (F := Ideal)
            (Host.dotGeneral (F := Ideal) (φ₁ := .f32) (φ₂ := .f32) dot_S4x128_S128x128_S4x128_1_0_0_1_n_n none
              (m ((c : Thread nD τ).loc main_arg0) : FVec Ideal S4x128 .f32)
              (extractStridedSlice S128x128 ![2, 0] (m ((c : Thread nD τ).loc main_arg4) : FVec Ideal S130x128 .f32) slices_S130x128_S128x128_2_0))
            (broadcastInDim S4x128 ![0, 1] bcast_S1x128_S4x128_0_1
              (broadcastInDim S1x128 ![1] bcast_S128_S1x128_1 (m ((c : Thread nD τ).loc main_arg5) : FVec Ideal S128 .f32))))
          shapeCasts_S4x128_S4x1x128 := by
  dsimp only [V, hostOps0]
  after_results
  rfl

/-- The array of W1's first two rows at (d, h) is W1(d, h). -/
theorem entry_v0 (c : Dev nD) (d : Fin 2) (h : Fin 128) :
    (V m c main_v0 : S2x128.Idx → EReal) (ix2 d h)
      = m ((c : Thread nD τ).loc main_arg4) (ix2 (⟨d.val, by omega⟩ : Fin 130) h) := by
  rw [V_v0_eq]
  exact slice_rows0_apply _ _ d h

/-- The 4 × 1 × 128 array at (b, 0, h) is the representation's share of the first layer, the bias included. -/
theorem entry_v6 (c : Dev nD) (b : Fin 4) (h : Fin 128) :
    (V m c main_v6 : S4x1x128.Idx → EReal) (ix3 b (0 : Fin 1) h)
      = Cert.Spec.rc (m ((c : Thread nD τ).loc main_arg0)) (m ((c : Thread nD τ).loc main_arg4))
          (m ((c : Thread nD τ).loc main_arg5)) b h := by
  rw [V_v6_eq]
  refine (cast_ab_a1b_apply _ _ b (0 : Fin 1) h).trans ?_
  rw [addf_apply, dot_apply, bcast_rows_apply, bcast_row_apply]
  unfold Cert.Spec.rc
  refine congrArg (· + _) (Finset.sum_congr rfl fun k _ => ?_)
  rw [slice_rows2_apply]

end Cert.KernelIdeal.Entry

end
-- ==== Proof.KernelValue.lean ====
/-
  The result array of the idealized kernel after the run, as ONE function of the argument arrays.

  Grid point `t` has coordinates (b, n, mm) and writes back the block of the result at rows n·128 … n·128+127 of the first
  point axis, columns mm·128 … mm·128+127 of the second, batch b. The body's six input blocks at that point are: rows
  n·128 … of the context points (window 0), rows mm·128 … of the same array (window 1), the batch's row of the
  representation's share of the first layer (window 2), and the whole of the first layer's two leading rows, of the second
  layer and of its bias (windows 3–5). Read at an entry of the block, the body's arithmetic on those blocks is the
  specification's split form `GK` at the entry's place in the array; the 36 blocks tile the array, so the array ends at `GK`.
-/
import proofs.«127898_j27135603376524_2_alg».proof.Proof.FrameKernelIdeal
import proofs.«127898_j27135603376524_2_alg».proof.Proof.KernelPay
import proofs.«127898_j27135603376524_2_alg».proof.Proof.KernelEntry
import proofs.«127898_j27135603376524_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The specification's split form at the argument arrays as launched. -/
abbrev G (c : Dev nD) : S4x384x384x64.Idx → EReal :=
  Cert.Spec.GK (m ((c : Thread nD τ).loc main_arg0)) (m ((c : Thread nD τ).loc main_arg1)) (m ((c : Thread nD τ).loc main_arg4))
    (m ((c : Thread nD τ).loc main_arg5)) (m ((c : Thread nD τ).loc main_arg6)) (m ((c : Thread nD τ).loc main_arg7))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the grid: the row tile follows the output's first point axis, the column tile its
    second, the per-batch row its batch; the three whole operands stay at block 0; the output's block indices stay in range. -/
theorem idx_facts : ∀ t : Fin cfg0.N,
    win0_0.index t (0 : Fin 3) = win0_6.index t (0 : Fin 4) ∧ win0_0.index t (1 : Fin 3) = win0_6.index t (1 : Fin 4) ∧ win0_0.index t (2 : Fin 3) = 0
    ∧ win0_1.index t (0 : Fin 3) = win0_6.index t (0 : Fin 4) ∧ win0_1.index t (1 : Fin 3) = win0_6.index t (2 : Fin 4) ∧ win0_1.index t (2 : Fin 3) = 0
    ∧ win0_2.index t (0 : Fin 3) = win0_6.index t (0 : Fin 4) ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (3 : Fin 4) = 0 ∧ win0_6.index t (0 : Fin 4) ≤ 3 ∧ win0_6.index t (1 : Fin 4) ≤ 2 ∧ win0_6.index t (2 : Fin 4) ≤ 2 :=
  (by decide +kernel : ∀ t : Fin grid0.N, _)

/-- Every block of the result is some point's. -/
theorem idx_onto : ∀ (q0 : Fin 4) (q1 q2 : Fin 3), ∃ t : Fin cfg0.N, win0_6.index t = ![q0.val, q1.val, q2.val, 0] :=
  (by decide +kernel : ∀ (q0 : Fin 4) (q1 q2 : Fin 3), ∃ t : Fin grid0.N, win0_6.index t = ![q0.val, q1.val, q2.val, 0])

/-! ## The six input blocks at a point, read at an entry -/

/-- Window 0's block at point `t`, entry (0, p, k): row (block row)·128 + p of the context points in the point's batch. -/
theorem blk0_apply (c : Dev nD) (t : Fin cfg0.N) (p : Fin 128) (k : Fin 2) (i0 : Fin 4) (i1 : Fin 384)
    (h0 : i0.val = win0_6.index t (0 : Fin 4)) (h1 : i1.val = win0_6.index t (1 : Fin 4) * 128 + p.val) :
    iblk m c 0 t (ix3 (0 : Fin 1) p k) = m ((c : Thread nD τ).loc main_arg1) (ix3 i0 i1 k) := by
  obtain ⟨e0, e1, e2, -⟩ := idx_facts t
  unfold iblk
  show V m c main_arg1 (((cfg0.win 0).blk t).view.emb (ix3 (0 : Fin 1) p k)) = _
  rw [V_main_arg1]
  refine congrArg _ (funext fun a => Fin.ext ?_)
  match a with
  | ⟨0, _⟩ => show win0_0.index t (0 : Fin 3) * 1 + 1 * 0 = i0.val; omega
  | ⟨1, _⟩ => show win0_0.index t (1 : Fin 3) * 128 + 1 * p.val = i1.val; omega
  | ⟨2, _⟩ => show win0_0.index t (2 : Fin 3) * 2 + 1 * k.val = k.val; omega

/-- Window 1's block at point `t`, entry (0, q, k): row (block column)·128 + q of the same array. -/
theorem blk1_apply (c : Dev nD) (t : Fin cfg0.N) (q : Fin 128) (k : Fin 2) (i0 : Fin 4) (i2 : Fin 384)
    (h0 : i0.val = win0_6.index t (0 : Fin 4)) (h2 : i2.val = win0_6.index t (2 : Fin 4) * 128 + q.val) :
    iblk m c 1 t (ix3 (0 : Fin 1) q k) = m ((c : Thread nD τ).loc main_arg1) (ix3 i0 i2 k) := by
  obtain ⟨-, -, -, e0, e1, e2, -⟩ := idx_facts t
  unfold iblk
  show V m c main_arg1 (((cfg0.win 1).blk t).view.emb (ix3 (0 : Fin 1) q k)) = _
  rw [V_main_arg1]
  refine congrArg _ (funext fun a => Fin.ext ?_)
  match a with
  | ⟨0, _⟩ => show win0_1.index t (0 : Fin 3) * 1 + 1 * 0 = i0.val; omega
  | ⟨1, _⟩ => show win0_1.index t (1 : Fin 3) * 128 + 1 * q.val = i2.val; omega
  | ⟨2, _⟩ => show win0_1.index t (2 : Fin 3) * 2 + 1 * k.val = k.val; omega

/-- Window 2's block at point `t`, entry (0, 0, h): the batch's entry of the representation's share of the first layer. -/
theorem blk2_apply (c : Dev nD) (t : Fin cfg0.N) (h : Fin 128) (i0 : Fin 4) (h0 : i0.val = win0_6.index t (0 : Fin 4)) :
    iblk m c 2 t (ix3 (0 : Fin 1) (0 : Fin 1) h)
      = Cert.Spec.rc (m ((c : Thread nD τ).loc main_arg0)) (m ((c : Thread nD τ).loc main_arg4)) (m ((c : Thread nD τ).loc main_arg5)) i0 h := by
  obtain ⟨-, -, -, -, -, -, e0, e1, e2, -⟩ := idx_facts t
  unfold iblk
  show V m c main_v6 (((cfg0.win 2).blk t).view.emb (ix3 (0 : Fin 1) (0 : Fin 1) h)) = _
  refine Eq.trans ?_ (Cert.KernelIdeal.Entry.entry_v6 m c i0 h)
  refine congrArg _ (funext fun a => Fin.ext ?_)
  match a with
  | ⟨0, _⟩ => show win0_2.index t (0 : Fin 3) * 1 + 1 * 0 = i0.val; omega
  | ⟨1, _⟩ => show win0_2.index t (1 : Fin 3) * 1 + 1 * 0 = 0; omega
  | ⟨2, _⟩ => show win0_2.index t (2 : Fin 3) * 128 + 1 * h.val = h.val; omega

/-- Window 3's block, entry (d, h): row `d` of the first layer. -/
theorem blk3_apply (c : Dev nD) (t : Fin cfg0.N) (d : Fin 2) (h : Fin 128) :
    iblk m c 3 t (ix2 d h) = m ((c : Thread nD τ).loc main_arg4) (ix2 (⟨d.val, by omega⟩ : Fin 130) h) := by
  obtain ⟨-, -, -, -, -, -, -, -, -, e0, e1, -⟩ := idx_facts t
  unfold iblk
  show V m c main_v0 (((cfg0.win 3).blk t).view.emb (ix2 d h)) = _
  refine Eq.trans ?_ (Cert.KernelIdeal.Entry.entry_v0 m c d h)
  refine congrArg _ (funext fun a => Fin.ext ?_)
  match a with
  | ⟨0, _⟩ => show win0_3.index t (0 : Fin 2) * 2 + 1 * d.val = d.val; omega
  | ⟨1, _⟩ => show win0_3.index t (1 : Fin 2) * 128 + 1 * h.val = h.val; omega

/-- Window 4's block, entry (h, o): the second layer. -/
theorem blk4_apply (c : Dev nD) (t : Fin cfg0.N) (h : Fin 128) (o : Fin 64) :
    iblk m c 4 t (ix2 h o) = m ((c : Thread nD τ).loc main_arg6) (ix2 h o) := by
  obtain ⟨-, -, -, -, -, -, -, -, -, -, -, e0, e1, -⟩ := idx_facts t
  unfold iblk
  show V m c main_arg6 (((cfg0.win 4).blk t).view.emb (ix2 h o)) = _
  rw [V_main_arg6]
  refine congrArg _ (funext fun a => Fin.ext ?_)
  match a with
  | ⟨0, _⟩ => show win0_4.index t (0 : Fin 2) * 128 + 1 * h.val = h.val; omega
  | ⟨1, _⟩ => show win0_4.index t (1 : Fin 2) * 64 + 1 * o.val = o.val; omega

/-- Window 5's block, entry o: the second bias. -/
theorem blk5_apply (c : Dev nD) (t : Fin cfg0.N) (o : Fin 64) :
    iblk m c 5 t (ix1 o) = m ((c : Thread nD τ).loc main_arg7) (ix1 o) := by
  obtain ⟨-, -, -, -, -, -, -, -, -, -, -, -, -, e0, -⟩ := idx_facts t
  unfold iblk
  show V m c main_arg7 (((cfg0.win 5).blk t).view.emb (ix1 o)) = _
  rw [V_main_arg7]
  refine congrArg _ (funext fun a => Fin.ext ?_)
  match a with
  | ⟨0, _⟩ => show win0_5.index t (0 : Fin 1) * 64 + 1 * o.val = o.val; omega

/-! ## What a point writes back -/

/-- WHAT POINT `t` WRITES BACK is block `t` of `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after6]
  unfold out6
  rw [View.canon_unit_zero hz4]
  simp only [View.ld_unit_zero (S := S1x128x2) hz3, View.ld_unit_zero (S := S1x1x128) hz3, View.ld_unit_zero (S := S2x128) hz2,
    View.ld_unit_zero (S := S128x64) hz2, View.ld_unit_zero (S := S64) hz1]
  obtain ⟨-, -, -, -, -, -, -, -, -, -, -, -, -, -, e3, b0, b1, b2⟩ := idx_facts t
  funext y
  obtain ⟨u, p, q, o, rfl⟩ : ∃ (u : Fin 1) (p q : Fin 128) (o : Fin 64), y = ix4 u p q o := ⟨y 0, y 1, y 2, y 3, eq_ix4 y⟩
  obtain rfl : u = 0 := Subsingleton.elim _ _
  have hp := p.isLt
  have hq := q.isLt
  -- the entry's place in the array
  obtain ⟨i0, h0⟩ : ∃ i0 : Fin 4, i0.val = win0_6.index t (0 : Fin 4) := ⟨⟨win0_6.index t (0 : Fin 4), by omega⟩, rfl⟩
  obtain ⟨i1, h1⟩ : ∃ i1 : Fin 384, i1.val = win0_6.index t (1 : Fin 4) * 128 + p.val := ⟨⟨win0_6.index t (1 : Fin 4) * 128 + p.val, by omega⟩, rfl⟩
  obtain ⟨i2, h2⟩ : ∃ i2 : Fin 384, i2.val = win0_6.index t (2 : Fin 4) * 128 + q.val := ⟨⟨win0_6.index t (2 : Fin 4) * 128 + q.val, by omega⟩, rfl⟩
  have hemb : ((cfg0.win 6).blk t).view.emb (ix4 (0 : Fin 1) p q o) = ix4 i0 i1 i2 o := funext fun a => Fin.ext (by
    match a with
    | ⟨0, _⟩ => show win0_6.index t (0 : Fin 4) * 1 + 1 * 0 = i0.val; omega
    | ⟨1, _⟩ => show win0_6.index t (1 : Fin 4) * 128 + 1 * p.val = i1.val; omega
    | ⟨2, _⟩ => show win0_6.index t (2 : Fin 4) * 128 + 1 * q.val = i2.val; omega
    | ⟨3, _⟩ => show win0_6.index t (3 : Fin 4) * 64 + 1 * o.val = o.val; omega)
  show k0_pay1 (F := Ideal) (k0_pay2 (F := Ideal) (iblk m c 0 t) (iblk m c 1 t) (iblk m c 2 t) (iblk m c 3 t)) (iblk m c 4 t) (iblk m c 5 t)
      (ix4 (0 : Fin 1) p q o) = G m c (((cfg0.win 6).blk t).view.emb (ix4 (0 : Fin 1) p q o))
  rw [hemb]
  refine (Cert.KernelIdeal.Pay.pay_apply _ _ _ _ _ _ p q o).trans ?_
  rw [blk5_apply m c t o]
  refine congrArg (· + m ((c : Thread nD τ).loc main_arg7) (ix1 o)) (Finset.sum_congr rfl fun h _ => ?_)
  rw [blk0_apply m c t p (0 : Fin 2) i0 i1 h0 h1, blk0_apply m c t p (1 : Fin 2) i0 i1 h0 h1,
    blk1_apply m c t q (0 : Fin 2) i0 i2 h0 h2, blk1_apply m c t q (1 : Fin 2) i0 i2 h0 h2,
    blk2_apply m c t h i0 h0, blk3_apply m c t (0 : Fin 2) h, blk3_apply m c t (1 : Fin 2) h, blk4_apply m c t h o]
  rfl

/-! ## The blocks tile the array -/

/-- An index of the array is in point `t`'s block iff each coordinate is in the block's range on its axis. -/
theorem mem_blk (t : Fin cfg0.N) (i : S4x384x384x64.Idx) :
    i ∈ ((cfg0.win 6).blk t).view.set ↔ ∀ a : Fin 4, win0_6.index t a * S1x128x128x64.size a ≤ (i a).val
      ∧ (i a).val < win0_6.index t a * S1x128x128x64.size a + S1x128x128x64.size a := by
  show i ∈ ((View.whole main_v7).slice (win0_6.rect t)).set ↔ _
  rw [View.set_slice_whole, Rect.mem_set_unit]
  exact Iff.rfl

/-- Every index of the array is in some point's block: the point whose coordinates are the batch and the two
    quotients by 128. -/
theorem cover (i : S4x384x384x64.Idx) :
    ∃ t : Fin cfg0.N, (cfg0.win 6).flush t = true ∧ i ∈ ((cfg0.win 6).blk t).view.set := by
  have hi0 : (i 0).val < 4 := (i 0).isLt
  have hi1 : (i 1).val < 384 := (i 1).isLt
  have hi2 : (i 2).val < 384 := (i 2).isLt
  have hi3 : (i 3).val < 64 := (i 3).isLt
  obtain ⟨t, ht⟩ := idx_onto ⟨(i 0).val, hi0⟩ ⟨(i 1).val / 128, by omega⟩ ⟨(i 2).val / 128, by omega⟩
  have q0 : win0_6.index t (0 : Fin 4) = (i 0).val := congrFun ht 0
  have q1 : win0_6.index t (1 : Fin 4) = (i 1).val / 128 := congrFun ht 1
  have q2 : win0_6.index t (2 : Fin 4) = (i 2).val / 128 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 128 ≤ (i 1).val ∧ (i 1).val < win0_6.index t (1 : Fin 4) * 128 + 128; omega
  | ⟨2, _⟩ => show win0_6.index t (2 : Fin 4) * 128 ≤ (i 2).val ∧ (i 2).val < win0_6.index t (2 : Fin 4) * 128 + 128; omega
  | ⟨3, _⟩ => show win0_6.index t (3 : Fin 4) * 64 ≤ (i 3).val ∧ (i 3).val < win0_6.index t (3 : Fin 4) * 64 + 64; omega

/-- THE ARRAY after the run is `G`. -/
theorem final (c : Dev nD) : (dats m 0 c).arrAt 6 cfg0.N = G m c :=
  (dats m 0 c).arrAt_eq_of_cover 6 (G m c) (fun t _ => flushed_eq m c t) (cover)

/-! ## The run, read -/

/-- Every weakly fair execution of the idealized kernel terminates with the result array at `G` of the argument arrays and
    the argument arrays unchanged. -/
theorem run_value : θ_run defs (onTc (τ := τ) (main (F := Ideal))) ⟨m, fun _ => 0, ρ⟩ (fun r => ∀ c : Dev nD,
      r.2.mem ((c.tc : Thread nD τ).loc main_v7) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (final m c), (h c).2⟩) (run_named m ρ)

end Cert.KernelIdeal.Hand

end
-- ==== Proof.RefValue.lean ====
/-
  The reference's result, read one index at a time, is the second layer over the hidden layer on the joined input.

  From the outside in. The result at (b, i, j, o) is a sum over the 128 hidden units of the hidden unit times the
  second layer's weight, plus the second bias. A hidden unit at (b, i, j, h) is the maximum with zero of a sum over
  the 130 joined coordinates of the joined input times the first layer's weight, plus the first bias. The joined
  input at a coordinate k below 2 is the difference x(b,i,k) − x(b,j,k) of the two points, and at a coordinate from
  2 on it is the representation r(b, k − 2): the two pieces laid end to end along the last axis.
-/
import proofs.«127898_j27135603376524_2_alg».proof.Proof.Gen.ReferenceIdeal.Read
import proofs.«127898_j27135603376524_2_alg».proof.Proof.Spec

noncomputable section

namespace Cert.RefValue

open Cert.ReferenceIdeal Cert.ReferenceIdeal.Read Idealize.ShloMosaic Idealize.ShloMosaic.ValueIdx

/-! ## The joined input -/

/-- The first piece: both points broadcast over the pair (i, j) and subtracted, at (b, i, j, k), is
    x(b,i,k) − x(b,j,k). -/
theorem diff_apply (x1 : (⟨S4x384x2, .f32⟩ : BufTy).Contents (Elt Ideal)) (b : Fin 4) (i j : Fin 384) (k : Fin 2) :
    val_main_v4 (F := Ideal) x1 (ix4 b i j k) = x1 (ix3 b i k) - x1 (ix3 b j k) := by
  have e1 : idx_main_v0 (idx_main_v2 (ix4 b i j k)) = ix3 b i k :=
    funext fun a => Fin.ext (by match a with | ⟨0, _⟩ => rfl | ⟨1, _⟩ => rfl | ⟨2, _⟩ => rfl)
  have e2 : idx_main_v1 (idx_main_v3 (ix4 b i j k)) = ix3 b j k :=
    funext fun a => Fin.ext (by match a with | ⟨0, _⟩ => rfl | ⟨1, _⟩ => rfl | ⟨2, _⟩ => rfl)
  rw [val_main_v4_apply, val_main_v2_apply, val_main_v0_apply, val_main_v3_apply, val_main_v1_apply, e1, e2]
  rfl

/-- The second piece: the representation broadcast over the pair (i, j), at (b, i, j, k), is r(b,k). -/
theorem rep_apply (x0 : (⟨S4x128, .f32⟩ : BufTy).Contents (Elt Ideal)) (b : Fin 4) (i j : Fin 384) (k : Fin 128) :
    val_main_v6 (F := Ideal) x0 (ix4 b i j k) = x0 (ix2 b k) := by
  have e : idx_main_v5 (idx_main_v6 (ix4 b i j k)) = ix2 b k :=
    funext fun a => Fin.ext (by match a with | ⟨0, _⟩ => rfl | ⟨1, _⟩ => rfl)
  rw [val_main_v6_apply, val_main_v5_apply, e]

/-- The two pieces laid end to end along the last axis: a coordinate below 2 falls in the first piece at that
    coordinate, one from 2 on in the second piece at the coordinate less 2. -/
theorem joined_apply (x0 : (⟨S4x128, .f32⟩ : BufTy).Contents (Elt Ideal)) (x1 : (⟨S4x384x2, .f32⟩ : BufTy).Contents (Elt Ideal))
    (b : Fin 4) (i j : Fin 384) (k : Fin 130) :
    val_main_v7 (F := Ideal) x0 x1 (ix4 b i j k) = Cert.Spec.z x0 x1 b i j k := by
  unfold val_main_v7 Cert.Spec.z
  by_cases hk : k.val < 2
  · rw [dif_pos hk]
    refine (concatenate_pair_apply_left (t := S4x384x384x130) (s₁ := S4x384x384x2) (s₂ := S4x384x384x128) 3 _ _ _
      (ix4 b i j k) rfl (ix4 b i j (⟨k.val, hk⟩ : Fin 2)) (fun a => by
        match a with | ⟨0, _⟩ => rfl | ⟨1, _⟩ => rfl | ⟨2, _⟩ => rfl | ⟨3, _⟩ => rfl)).trans ?_
    exact diff_apply x1 b i j ⟨k.val, hk⟩
  · rw [dif_neg hk]
    refine (concatenate_pair_apply_right (t := S4x384x384x130) (s₁ := S4x384x384x2) (s₂ := S4x384x384x128) 3 _ _ _
      (ix4 b i j k) rfl rfl (ix4 b i j (⟨k.val - 2, by omega⟩ : Fin 128)) (fun a ha => by
        match a with
        | ⟨0, _⟩ => rfl
        | ⟨1, _⟩ => rfl
        | ⟨2, _⟩ => rfl
        | ⟨3, _⟩ => exact absurd rfl ha) (by show k.val - 2 + 2 = k.val; omega)).trans ?_
    exact rep_apply x0 b i j ⟨k.val - 2, by omega⟩

/-! ## The hidden layer -/

/-- A hidden unit: the first layer on the joined input, the first bias added, the maximum with zero taken. -/
theorem hidden_apply (x0 : (⟨S4x128, .f32⟩ : BufTy).Contents (Elt Ideal)) (x1 : (⟨S4x384x2, .f32⟩ : BufTy).Contents (Elt Ideal))
    (x4 : (⟨S130x128, .f32⟩ : BufTy).Contents (Elt Ideal)) (x5 : (⟨S128, .f32⟩ : BufTy).Contents (Elt Ideal))
    (b : Fin 4) (i j : Fin 384) (h : Fin 128) :
    val_main_v12 (F := Ideal) x0 x1 x4 x5 (ix4 b i j h) = Cert.Spec.hidR x0 x1 x4 x5 b i j h := by
  have el : ∀ k : Fin 130, lidx_main_v8 (ix4 b i j h) k = ix4 b i j k := fun k =>
    funext fun a => Fin.ext (by match a with | ⟨0, _⟩ => rfl | ⟨1, _⟩ => rfl | ⟨2, _⟩ => rfl | ⟨3, _⟩ => rfl)
  have er : ∀ k : Fin 130, ridx_main_v8 (ix4 b i j h) k = ix2 k h := fun k =>
    funext fun a => Fin.ext (by match a with | ⟨0, _⟩ => rfl | ⟨1, _⟩ => rfl)
  have eb : idx_main_v9 (idx_main_v10 (ix4 b i j h)) = ix1 h :=
    funext fun a => Fin.ext (by match a with | ⟨0, _⟩ => rfl)
  rw [val_main_v12_apply, val_main_v11_apply, val_main_v8_apply, val_main_v10_apply, val_main_v9_apply,
    val_main_call0_v0_apply, val_main_call0_cst_apply, eb, Ideal.ofBits_def, Ideal.ofBits_zero_f32]
  show max ((∑ k : Fin 130, val_main_v7 (F := Ideal) x0 x1 (lidx_main_v8 (ix4 b i j h) k) * x4 (ridx_main_v8 (ix4 b i j h) k))
      + x5 (ix1 h)) 0
    = max ((∑ k : Fin 130, Cert.Spec.z x0 x1 b i j k * x4 (ix2 k h)) + x5 (ix1 h)) 0
  refine congrArg (fun s : EReal => max (s + x5 (ix1 h)) 0) (Finset.sum_congr rfl fun k _ => ?_)
  rw [el k, er k, joined_apply]

/-! ## The result -/

/-- The reference's result is the second layer over the hidden layer on the joined input. -/
theorem ref_eq (x0 : (⟨S4x128, .f32⟩ : BufTy).Contents (Elt Ideal)) (x1 : (⟨S4x384x2, .f32⟩ : BufTy).Contents (Elt Ideal))
    (x4 : (⟨S130x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal)) :
    val_main_v16 (F := Ideal) x0 x1 x4 x5 x6 x7 = Cert.Spec.GR x0 x1 x4 x5 x6 x7 := by
  funext y
  obtain ⟨b, i, j, o, rfl⟩ : ∃ (b : Fin 4) (i j : Fin 384) (o : Fin 64), y = ix4 b i j o :=
    ⟨y 0, y 1, y 2, y 3, eq_ix4 y⟩
  have el : ∀ k : Fin 128, lidx_main_v13 (ix4 b i j o) k = ix4 b i j k := fun k =>
    funext fun a => Fin.ext (by match a with | ⟨0, _⟩ => rfl | ⟨1, _⟩ => rfl | ⟨2, _⟩ => rfl | ⟨3, _⟩ => rfl)
  have er : ∀ k : Fin 128, ridx_main_v13 (ix4 b i j o) k = ix2 k o := fun k =>
    funext fun a => Fin.ext (by match a with | ⟨0, _⟩ => rfl | ⟨1, _⟩ => rfl)
  have eb : idx_main_v14 (idx_main_v15 (ix4 b i j o)) = ix1 o :=
    funext fun a => Fin.ext (by match a with | ⟨0, _⟩ => rfl)
  rw [val_main_v16_apply, val_main_v13_apply, val_main_v15_apply, val_main_v14_apply, eb]
  show (∑ k : Fin 128, val_main_v12 (F := Ideal) x0 x1 x4 x5 (lidx_main_v13 (ix4 b i j o) k) * x6 (ridx_main_v13 (ix4 b i j o) k))
      + x7 (ix1 o)
    = (∑ h : Fin 128, Cert.Spec.hidR x0 x1 x4 x5 b i j h * x6 (ix2 h o)) + x7 (ix1 o)
  refine congrArg (fun s : EReal => s + x7 (ix1 o)) (Finset.sum_congr rfl fun k _ => ?_)
  rw [el k, er k, hidden_apply]

end Cert.RefValue

end
-- ==== Proof.Bridge.lean ====
/-
  The two forms of the hidden unit agree on real inputs.

  The first layer's sum over the 130 joined inputs is its two leading terms (the difference of the two points against
  rows 0 and 1 of the weight) plus the sum over the 128 entries of the representation against rows 2 … 129. Once every
  entry involved is a real number, both forms are the image of one real expression, and the two real expressions agree
  by the ring laws: `(a − a')·u + ((c − c')·v + S) + β = ((a·u + c·v) + (S + β)) − (a'·u + c'·v)`.
-/
import proofs.«127898_j27135603376524_2_alg».proof.Proof.Spec
import Mathlib.Data.EReal.Operations
import Mathlib.Algebra.BigOperators.Fin
import Mathlib.Tactic.Ring

noncomputable section

namespace Cert.Spec

open Idealize.ShloMosaic Idealize.ShloMosaic.ValueIdx

/-- Every entry of an array of extended reals is a real number. -/
def AllReal {s : Idealize.ShloMosaic.Shape} (a : s.Idx → EReal) : Prop := ∀ i, ∃ y : ℝ, a i = (y : EReal)

/-- A finite sum of real numbers, each read as an extended real, is the real sum read as an extended real. -/
theorem sum_coe_real {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The first layer's sum over the joined input: its two leading terms, then the representation's share. -/
theorem sum_z_split (r : SR.Idx → EReal) (x : SX.Idx → EReal) (W1 : SW1.Idx → EReal)
    (b : Fin 4) (i j : Fin 384) (h : Fin 128) :
    (∑ k : Fin 130, z r x b i j k * W1 (ix2 k h))
      = (x (ix3 b i (0 : Fin 2)) - x (ix3 b j (0 : Fin 2))) * W1 (ix2 (0 : Fin 130) h)
        + ((x (ix3 b i (1 : Fin 2)) - x (ix3 b j (1 : Fin 2))) * W1 (ix2 (1 : Fin 130) h)
          + ∑ k : Fin 128, r (ix2 b k) * W1 (ix2 (⟨k.val + 2, by omega⟩ : Fin 130) h)) := by
  rw [Fin.sum_univ_succ, Fin.sum_univ_succ]
  rfl

theorem hid_eq (r : SR.Idx → EReal) (x : SX.Idx → EReal) (W1 : SW1.Idx → EReal) (b1 : SB1.Idx → EReal)
    (hr : ∀ i, ∃ y : ℝ, r i = (y : EReal)) (hx : ∀ i, ∃ y : ℝ, x i = (y : EReal))
    (hW : ∀ i, ∃ y : ℝ, W1 i = (y : EReal)) (hb : ∀ i, ∃ y : ℝ, b1 i = (y : EReal)) :
    hidR r x W1 b1 = hidK r x W1 b1 := by
  choose r' hr' using hr
  choose x' hx' using hx
  choose W' hW' using hW
  choose b' hb' using hb
  funext b i j h
  unfold hidR hidK lin rc
  rw [sum_z_split]
  congr 1
  simp only [hr', hx', hW', hb']
  simp only [← EReal.coe_mul, ← EReal.coe_sub, sum_coe_real, ← EReal.coe_add]
  rw [EReal.coe_eq_coe_iff]
  ring

theorem GR_eq_GK (r : SR.Idx → EReal) (x : SX.Idx → EReal) (W1 : SW1.Idx → EReal) (b1 : SB1.Idx → EReal)
    (W2 : SW2.Idx → EReal) (b2 : SB2.Idx → EReal)
    (hr : ∀ i, ∃ y : ℝ, r i = (y : EReal)) (hx : ∀ i, ∃ y : ℝ, x i = (y : EReal))
    (hW : ∀ i, ∃ y : ℝ, W1 i = (y : EReal)) (hb : ∀ i, ∃ y : ℝ, b1 i = (y : EReal)) :
    GR r x W1 b1 W2 b2 = GK r x W1 b1 W2 b2 := by
  unfold GR GK
  rw [hid_eq r x W1 b1 hr hx hW hb]

end Cert.Spec

end
-- ==== Proof.Finite.lean ====
/-
  From the precondition to "every entry is a real number".

  The precondition compares, entry by entry, the absolute value of each input with +∞, takes the conjunction over all
  entries of each input, and then the conjunction of the eight results. It holds, so each conjunct holds, so every entry
  `x` of every input has `max x (−x) < ⊤`; of the three kinds of extended real only a real number satisfies that
  (`max ⊤ (−⊤) = ⊤` and `max ⊥ (−⊥) = ⊤`).
-/
import proofs.«127898_j27135603376524_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The pattern the precondition compares against denotes +∞. -/
theorem inf_bits : Ideal.ofBits .f32 0x7F800000#32 = (⊤ : EReal) := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ y : ℝ, x = (y : EReal) := by
  rw [inf_bits] at h
  induction x using EReal.rec with
  | bot => simp [Ideal.cmp] at h
  | coe y => exact ⟨y, rfl⟩
  | top => simp [Ideal.cmp] at h

/-- One input: if the conjunction over all its entries of "absolute value below +∞" holds, every entry is real. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
        (constantI S_ 1 1#1) hr hu ix0 = 1#1) :
    ∀ i, ∃ y : ℝ, a i = (y : EReal) := fun i =>
  real_of_abs_lt (a i) (Host.reduce_andi_all _ _ hr hu ix0 e i)

theorem real_of_pre (a0 : FVec Ideal S4x128 .f32) (a1 : FVec Ideal S4x384x2 .f32) (a2 : FVec Ideal S4x384x1 .f32)
    (a3 : FVec Ideal S4x256x2 .f32) (a4 : FVec Ideal S130x128 .f32) (a5 : FVec Ideal S128 .f32)
    (a6 : FVec Ideal S128x64 .f32) (a7 : FVec Ideal S64 .f32)
    (h : Cert.Pre_finite_inputs.fn (F := Ideal) a0 a1 a2 a3 a4 a5 a6 a7 = fun _ => 1#1) :
    (∀ i, ∃ y : ℝ, a0 i = (y : EReal)) ∧ (∀ i, ∃ y : ℝ, a1 i = (y : EReal)) ∧ (∀ i, ∃ y : ℝ, a4 i = (y : EReal))
      ∧ (∀ i, ∃ y : ℝ, a5 i = (y : EReal)) := by
  have h0 := congrFun h ix0
  dsimp only [fn, fn_part1, fn_part2] at h0
  -- the eight conjuncts, last first
  obtain ⟨h0, -⟩ := IntOp.andi_eq_one.1 h0
  obtain ⟨h0, -⟩ := IntOp.andi_eq_one.1 h0
  obtain ⟨h0, e5⟩ := IntOp.andi_eq_one.1 h0
  obtain ⟨h0, e4⟩ := IntOp.andi_eq_one.1 h0
  obtain ⟨h0, -⟩ := IntOp.andi_eq_one.1 h0
  obtain ⟨h0, -⟩ := IntOp.andi_eq_one.1 h0
  obtain ⟨e0, e1⟩ := IntOp.andi_eq_one.1 h0
  exact ⟨all_real a0 _ _ _ e0, all_real a1 _ _ _ e1, all_real a4 _ _ _ e4, all_real a5 _ _ _ e5⟩

end Cert.Finite

end
-- ==== Proof.lean ====
/-
  The certificate of one pairwise deep-set decoder against its reference, over the extended reals.

  Both programs take a representation r (4 × 128), context points x (4 × 384 × 2) and a two-layer perceptron
  (W1 : 130 × 128, b1; W2 : 128 × 64, b2), and return for every batch b and ordered pair of points (i, j) the 64 numbers
  `Σₕ max 0 (pre(b,i,j,h)) · W2(h,o) + b2(o)`. The reference forms the first layer's argument on the joined vector
  `(x(b,i,·) − x(b,j,·), r(b,·))`: `pre = Σₖ z(k)·W1(k,h) + b1(h)`. The kernel uses the first layer's linearity: on the host it
  folds the representation's share and the bias into one row per batch, `rc(b,h) = Σₖ r(b,k)·W1(k+2,h) + b1(h)`, and in
  each of 36 grid points (batch × row tile × column tile of 128 points) forms `a(i,h) = x(b,i,0)·W1(0,h) + x(b,i,1)·W1(1,h) + rc(b,h)`
  for the row tile, the same without `rc` for the column tile, subtracts, and applies the second layer on the matrix unit.
  At exact arithmetic a change of float format is the identity and a matrix product into a zero accumulator is the plain
  sum, so the kernel's result is the specification's split form and the reference's its joined form (Proof/Spec.lean).
  The two forms agree once the entries of r, x, W1 and b1 are real numbers — distributing a product over a difference fails
  at infinities — and that is what the precondition (every input finite) gives.

  The three frames: the word-level kernel's and the idealized kernel's are one text read at two instances
  (Proof/FrameKernel.lean, Proof/FrameKernelIdeal.lean: two windows of the region read one array, which is dealt to them in
  halves); the reference's is its run with the result dropped. The idealization rewrote no operation, so `preserves` is trivial.
-/
import proofs.«127898_j27135603376524_2_alg».proof.Defs
import proofs.«127898_j27135603376524_2_alg».proof.Proof.Gen.Kernel
import proofs.«127898_j27135603376524_2_alg».proof.Proof.Gen.KernelIdeal
import proofs.«127898_j27135603376524_2_alg».proof.Proof.Gen.ReferenceIdeal
import proofs.«127898_j27135603376524_2_alg».proof.Proof.Gen.Pre_finite_inputs
import proofs.«127898_j27135603376524_2_alg».proof.Proof.Gen.ReferenceIdeal.Run
import proofs.«127898_j27135603376524_2_alg».proof.Proof.Gen.ReferenceIdeal.Read
import proofs.«127898_j27135603376524_2_alg».proof.Proof.FrameKernel
import proofs.«127898_j27135603376524_2_alg».proof.Proof.FrameKernelIdeal
import proofs.«127898_j27135603376524_2_alg».proof.Proof.KernelValue
import proofs.«127898_j27135603376524_2_alg».proof.Proof.RefValue
import proofs.«127898_j27135603376524_2_alg».proof.Proof.Bridge
import proofs.«127898_j27135603376524_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result at the specification's split form of the (agreeing) argument arrays: the
    kernel by its blocks, the reference by its operations read at an index and then the bridge between the two forms, which
    holds because the precondition makes every entry of r, x, W1 and b1 a real number. -/
theorem algebraic : Cert.algebraic_KernelIdeal_ReferenceIdeal := by
  intro m ρ m' ρ' hpre hagree
  refine ⟨fun c => Cert.KernelIdeal.Hand.G m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v16_eq, Cert.RefValue.ref_eq, a0, a1, a4, a5, a6, a7]
  obtain ⟨r0, r1, r4, r5⟩ := Cert.Finite.real_of_pre _ _ _ _ _ _ _ _ (hpre c)
  exact Cert.Spec.GR_eq_GK _ _ _ _ _ _ r0 r1 r4 r5

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
